-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : IVec S100000 32) (main_arg2 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S100000x64 : Shape := ⟨2, ![100000, 64]⟩
abbrev S100000 : Shape := ⟨1, ![100000]⟩
abbrev S64x64 : Shape := ⟨2, ![64, 64]⟩
abbrev S10x1x10000 : Shape := ⟨3, ![10, 1, 10000]⟩
abbrev S_ : Shape := ⟨0, ![]⟩
abbrev S64 : Shape := ⟨1, ![64]⟩
abbrev S1x64 : Shape := ⟨2, ![1, 64]⟩
abbrev S1x1 : Shape := ⟨2, ![1, 1]⟩
abbrev S1x1x10000 : Shape := ⟨3, ![1, 1, 10000]⟩
abbrev S10000x64 : Shape := ⟨2, ![10000, 64]⟩
abbrev S64x1 : Shape := ⟨2, ![64, 1]⟩
abbrev S1x10000 : Shape := ⟨2, ![1, 10000]⟩
abbrev S64x10000 : Shape := ⟨2, ![64, 10000]⟩
abbrev S1 : Shape := ⟨1, ![1]⟩

abbrev nBuf : Space → Nat
  | .hbm => 18
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S64x64, .f32⟩
  | .hbm, ⟨3, _⟩ => ⟨S10x1x10000, .i32⟩
  | .hbm, ⟨4, _⟩ => ⟨S100000x64, .bf16⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S64x64, .bf16⟩
  | .hbm, ⟨10, _⟩ => ⟨S_, .bf16⟩
  | .hbm, ⟨11, _⟩ => ⟨S64x64, .bf16⟩
  | .hbm, ⟨12, _⟩ => ⟨S64x64, .f32⟩
  | .hbm, ⟨13, _⟩ => ⟨S_, .f32⟩
  | .hbm, ⟨14, _⟩ => ⟨S64, .f32⟩
  | .hbm, ⟨15, _⟩ => ⟨S1x64, .f32⟩
  | .hbm, ⟨16, _⟩ => ⟨S1x1, .f32⟩
  | .hbm, ⟨17, _⟩ => ⟨S_, .f32⟩
  | .local _ .vmem, ⟨0, _⟩ => ⟨S1x1x10000, .i32⟩
  | .local _ .vmem, ⟨1, _⟩ => ⟨S1x1x10000, .i32⟩
  | .local _ .vmem, ⟨2, _⟩ => ⟨S10000x64, .bf16⟩
  | .local _ .vmem, ⟨3, _⟩ => ⟨S10000x64, .bf16⟩
  | .local _ .vmem, ⟨4, _⟩ => ⟨S64x64, .bf16⟩
  | .local _ .vmem, ⟨5, _⟩ => ⟨S64x64, .bf16⟩
  | .local _ .vmem, ⟨6, _⟩ => ⟨S1x64, .f32⟩
  | .local _ .vmem, ⟨7, _⟩ => ⟨S1x1, .f32⟩
  | .local _ .vmem, ⟨8, _⟩ => ⟨S64x64, .f32⟩
  | .local _ .vmem, ⟨9, _⟩ => ⟨S64x64, .f32⟩
  | .local _ .vmem, ⟨10, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v48 : BitVec 1 := Scalar.cmpi .eq arg0 c9_i32
  let v49 : BitVec 32 := Scalar.extui v48
  let c0_i32_28 : BitVec 32 := 0#32
  let v50 : BitVec 1 := Scalar.cmpi .ne v49 c0_i32_28
  v50

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x10000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S100000_S10x1x10000 : S100000.ShapeCasts S10x1x10000
  bitsLt_bf16_f32 : FTy.bits .bf16 < FTy.bits .f32
  transposes_S64x64_S64x64_1_0 : S64x64.Transposes [1, 0] S64x64
  bcast_S_S64x64 : S_.BroadcastsInDim S64x64 (![] : Fin 0 → Fin S64x64.rank)
  reducesTo_S64x64_S64_d1 : S64x64.ReducesTo [1] S64
  h_S_ : 0 < S_.numel
  bcast_S64_S1x64_1 : S64.BroadcastsInDim S1x64 (![1] : Fin 1 → Fin S1x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x10000 : S1x1x10000.ShapeCasts S1x10000
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  iota_S64x1_d0_w32 : S64x1.Iotas .tc 32 [0]
  broadcasts_S1x10000_S64x10000 : S1x10000.Broadcasts S64x10000
  broadcasts_S64x1_S64x10000 : S64x1.Broadcasts S64x10000
  natLt_1_32 : 1 < 32
  reduces_S64x10000_S64 : S64x10000.Reduces [1] S64
  shapeCasts_S64_S64x1 : S64.ShapeCasts S64x1
  iota_S64x64_d0_w32 : S64x64.Iotas .tc 32 [0]
  iota_S64x64_d1_w32 : S64x64.Iotas .tc 32 [1]
  shapeCasts_S64x1_S64 : S64x1.ShapeCasts S64
  reduces_S64x64_S64 : S64x64.Reduces [1] S64
  shapeCasts_S64_S1x64 : S64.ShapeCasts S1x64
  reduces_S1x64_S1 : S1x64.Reduces [1] S1
  shapeCasts_S1_S1x1 : S1.ShapeCasts S1x1
  inpos_S1x1_p0_0 : ∀ a, (![0, 0] : Fin 2 → Nat) a < S1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S10000x64_S64x64_S10000x64_1_0_0_1_n_n_wf : DotDims.WF S10000x64 S64x64 S10000x64 [1] [0] [0] [1] [] []
  dot_S64x10000_S10000x64_S64x64_1_0_0_1_n_n_wf : DotDims.WF S64x10000 S10000x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x10000.size a ≤ S10x1x10000.size a
  hwx0_0 : ∀ i : grid0.Coords, EltTy.bits .i32 = 32 ∨ (Rect.block (s := S10x1x10000) S1x1x10000.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .bf16 = 32 ∨ (Rect.block (s := S100000x64) S10000x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S64x10000_S10000x64_S64x64_1_0_0_1_n_n : DotDims S64x10000 S10000x64 S64x64 where
  lhsContracting := [1]
  rhsContracting := [0]
  lhsNonContracting := [0]
  rhsNonContracting := [1]
  lhsBatch := []
  rhsBatch := []
  wf := dot_S64x10000_S10000x64_S64x64_1_0_0_1_n_n_wf

abbrev win0_0 : Pipeline.Window sig grid0 :=
  Pipeline.Window.ofSpec (Memref.whole main_v0) S1x1x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S100000 : Shape := ⟨1, ![100000]⟩
abbrev S64x64 : Shape := ⟨2, ![64, 64]⟩
abbrev S_ : Shape := ⟨0, ![]⟩
abbrev S100000x1 : Shape := ⟨2, ![100000, 1]⟩
abbrev S64 : Shape := ⟨1, ![64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000, .i32⟩
  | .hbm, ⟨2, _⟩ => ⟨S64x64, .f32⟩
  | .hbm, ⟨3, _⟩ => ⟨S100000x64, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S64x64, .f32⟩
  | .hbm, ⟨8, _⟩ => ⟨S_, .f32⟩
  | .hbm, ⟨9, _⟩ => ⟨S64, .f32⟩
  | .hbm, ⟨10, _⟩ => ⟨S1x64, .f32⟩
  | .hbm, ⟨11, _⟩ => ⟨S100000x64, .f32⟩
  | .hbm, ⟨12, _⟩ => ⟨S100000x64, .f32⟩
  | .hbm, ⟨13, _⟩ => ⟨S100000x64, .f32⟩
  | .hbm, ⟨14, _⟩ => ⟨S64x64, .f32⟩
  | .hbm, ⟨15, _⟩ => ⟨S100000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S100000x64, .f32⟩
  | .hbm, ⟨20, _⟩ => ⟨S_, .f32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S100000x1, .i32⟩
  | .hbm, ⟨25, _⟩ => ⟨S1x64, .i32⟩
  | .hbm, ⟨26, _⟩ => ⟨S100000x64, .i32⟩
  | .hbm, ⟨27, _⟩ => ⟨S100000x64, .i32⟩
  | .hbm, ⟨28, _⟩ => ⟨S100000x64, .i1⟩
  | .hbm, ⟨29, _⟩ => ⟨S100000x64, .f32⟩
  | .hbm, ⟨30, _⟩ => ⟨S_, .f32⟩
  | .hbm, ⟨31, _⟩ => ⟨S64, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S64, .f32⟩
  | .hbm, ⟨54, _⟩ => ⟨S100000x64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .i1⟩
  | .hbm, ⟨68, _⟩ => ⟨S_, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S_, .f32⟩
  | .hbm, ⟨79, _⟩ => ⟨S_, .f32⟩
  | .hbm, ⟨80, _⟩ => ⟨S64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_cst_11 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_12 : Ref sig .tc := ⟨.hbm, 65, rfl⟩
abbrev main_v42 : Ref sig .tc := ⟨.hbm, 66, rfl⟩
abbrev main_v43 : Ref sig .tc := ⟨.hbm, 67, rfl⟩
abbrev main_cst_13 : Ref sig .tc := ⟨.hbm, 68, rfl⟩
abbrev main_call2_v0 : Ref sig .tc := ⟨.hbm, 69, rfl⟩
abbrev main_call2_v1 : Ref sig .tc := ⟨.hbm, 70, rfl⟩
abbrev main_v44 : Ref sig .tc := ⟨.hbm, 71, rfl⟩
abbrev main_cst_14 : Ref sig .tc := ⟨.hbm, 72, rfl⟩
abbrev main_v45 : Ref sig .tc := ⟨.hbm, 73, rfl⟩
abbrev main_cst_15 : Ref sig .tc := ⟨.hbm, 74, rfl⟩
abbrev main_call3_v0 : Ref sig .tc := ⟨.hbm, 75, rfl⟩
abbrev main_call3_v1 : Ref sig .tc := ⟨.hbm, 76, rfl⟩
abbrev main_v46 : Ref sig .tc := ⟨.hbm, 77, rfl⟩
abbrev main_cst_16 : Ref sig .tc := ⟨.hbm, 78, rfl⟩
abbrev main_v47 : Ref sig .tc := ⟨.hbm, 79, rfl⟩
abbrev main_v48 : Ref sig .tc := ⟨.hbm, 80, rfl⟩
abbrev main_cst_17 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩

abbrev nD : Nat := 1
abbrev τ : Topo := Topo.v7x

variable {F : FTy → Type} [FloatOps F]

class Facts₀ : Prop where
  reducesTo_S100000x64_S100000_d1 : S100000x64.ReducesTo [1] S100000
  h_S_ : 0 < S_.numel
  bcast_S100000_S100000x1_0 : S100000.BroadcastsInDim S100000x1 (![0] : Fin 1 → Fin S100000x1.rank)
  reducesTo_S64x64_S64_d1 : S64x64.ReducesTo [1] S64
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  transposes_S64x64_S64x64_1_0 : S64x64.Transposes [1, 0] S64x64
  bcast_S_S100000x64 : S_.BroadcastsInDim S100000x64 (![] : Fin 0 → Fin S100000x64.rank)
  reducesTo_S100000x64_S64_d0 : S100000x64.ReducesTo [0] S64
  bcast_S_S64 : S_.BroadcastsInDim S64 (![] : Fin 0 → Fin S64.rank)
  reducesTo_S64_S_d0 : S64.ReducesTo [0] S_
  dot_S100000x64_S64x64_S100000x64_1_0_0_1_n_n_wf : DotDims.WF S100000x64 S64x64 S100000x64 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.FiniteInputs.lean ====
/-
  The finiteness precondition, read back.

  The precondition is the scalar  all(|a0| < +∞) ∧ all(|a2| < +∞)  over the extended reals, and it is stated to be 1.
  A conjunction of one-bit words that is 1 has both sides 1; an "all" (a fold by "and" from 1 into a single result)
  that is 1 met a 1 at every index; so at every index i the comparison  max(x, -x) < +∞  holds for x = a0 i, and
  likewise for a2. The f32 word 0x7F800000 is +∞. An extended real x with max(x, -x) < +∞ is neither -∞ (then
  -x = +∞) nor +∞, hence a real number.

  Conclusion: every entry of a0 and every entry of a2 is (the image of) a real number.
-/
import proofs.«117046_g74603581931673_cont_9to1_m_1323_25_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic

/-- The f32 word 0x7F800000 is +∞. -/
theorem inf_f32 : Ideal.ofBits .f32 0x7F800000#32 = ⊤ := by simp [Ideal.ofBits, Ideal.ieee]

/-- An extended real whose absolute value max(x, -x) compares below the f32 word +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  induction x with
  | bot => exact absurd h (by simp [Ideal.cmp])
  | top => exact absurd h (by simp [Ideal.cmp])
  | coe r => exact ⟨r, rfl⟩

/-- The scalar shape has one index. -/
instance : Subsingleton Cert.Pre_finite_inputs.S_.Idx := ⟨fun a b => funext fun d => d.elim0⟩

/-- The precondition decoded: every entry of a0 and of a2 is a real number. -/
theorem reals_of_pre [Cert.Pre_finite_inputs.Facts] (a0 : FVec Ideal Cert.Pre_finite_inputs.S100000x64 .f32)
    (a1 : IVec Cert.Pre_finite_inputs.S100000 32) (a2 : FVec Ideal Cert.Pre_finite_inputs.S64x64 .f32)
    (h : Cert.Pre_finite_inputs.fn (F := Ideal) a0 a1 a2 = fun _ => 1#1) :
    (∀ i, ∃ r : ℝ, a0 i = ((r : ℝ) : EReal)) ∧ (∀ i, ∃ r : ℝ, a2 i = ((r : ℝ) : EReal)) := by
  have e := congrFun h ValueIdx.ix0
  dsimp only [Cert.Pre_finite_inputs.fn, andi] at e
  obtain ⟨e0, e2⟩ := IntOp.andi_eq_one.1 e
  refine ⟨fun i => ?_, fun i => ?_⟩
  · exact real_of_abs_lt_inf (a0 i) (Host.reduce_andi_all _ _ _ _ _ e0 i)
  · exact real_of_abs_lt_inf (a2 i) (Host.reduce_andi_all _ _ _ _ _ e2 i)

end Cert.FiniteInputs

end
-- ==== Proof.KerOutput.lean ====
/-
  What the kernel program's result holds, read off its frame run.

  The program is: host operations, one grid of 10 points, then one reshape of the [1,1] output to a scalar. The [1,1]
  output array has a single block, index (0,0) at every point; its staging buffer is written back only after the last
  point (point 9). So the output array ends holding what the staging buffer holds after point 9, and the program's
  result is that [1,1] array reshaped to a scalar. The three arguments end as launched.
-/
import proofs.«117046_g74603581931673_cont_9to1_m_1323_25_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KerOutput

open Cert.KernelIdeal Cert.KernelIdeal.Gen

variable {F : FTy → Type} [FloatOps F]
variable (m : (ℓ : Loc nD τ sig) → Buf (Elt F) ℓ) (ρ : Dev nD → PrngReg)

/-- What the output's staging buffer holds after the last point (point 9). -/
abbrev last (c : Dev nD) : Vec F S1x1 .f32 := (outsAt0 m c 9 (by rw [show cfg0.N = 10 from N_0]; decide)).1

/-- The output window's block index is (0,0) at every point, and its block is the whole [1,1] array. -/
theorem blk5 : ∀ t : Fin cfg0.N, ∀ a, win0_5.index t a * win0_5.size a = 0 ∧ win0_5.xsize (grid0.coords t) a = 1 :=
  (by decide +kernel : ∀ t : Fin grid0.N, ∀ a, win0_5.index t a * win0_5.size a = 0 ∧ win0_5.xsize (grid0.coords t) a = 1)

/-- The one write-back, at point 9, writes it: block (0,0) of the [1,1] array read through zero offsets is the array. -/
theorem flushed_eq (c : Dev nD) (t : Fin cfg0.N) (hf : (cfg0.win 5).flush t = true) :
    (dats m 0 c).flushed 5 t = ((cfg0.win 5).blk t).view.read (Elt F) (last m c) := by
  have hN : cfg0.N = 10 := N_0
  have h9 : t.val = 9 := by have := (flush0_5 t).mp hf; have := t.isLt; omega
  obtain rfl : t = t0_9 := Fin.ext h9
  show (cfg0.win 5).cut (grid0.coords t0_9) ((dats m 0 c).after 5 t0_9) = _
  rw [after0_5]
  have hz' : (fun a => win0_5.index t0_9 a * main_v10.ty.shape.size a) = fun _ => 0 := funext fun a => (blk5 t0_9 a).1
  exact (Memref.read_access_unit_zero (Elt F) main_v10 hz' (fun a => by rw [congrFun hz' a]; simp) (last m c)).symm

/-- So the output array ends holding what the staging buffer holds after point 9: point 9's block covers the array. -/
theorem final_out (c : Dev nD) : (dats m 0 c).arrAt 5 cfg0.N = last m c :=
  (dats m 0 c).arrAt_eq_of_cover 5 (last m c) (flushed_eq m c) fun i =>
    ⟨t0_9, (flush0_5 t0_9).mpr rfl, by
      show i ∈ ((View.whole main_v10).slice (win0_5.rect t0_9)).set
      rw [View.set_slice_whole, Rect.mem_set_unit]
      intro a
      have hi : (i a : Nat) < 1 := by
        have := (i a).isLt
        match a with
        | ⟨0, _⟩ => exact this
        | ⟨1, _⟩ => exact this
      show win0_5.index t0_9 a * win0_5.size a ≤ (i a : Nat) ∧ (i a : Nat) < win0_5.index t0_9 a * win0_5.size a + win0_5.xsize (grid0.coords t0_9) a
      rw [(blk5 t0_9 a).1, (blk5 t0_9 a).2]; omega⟩

/-- The program's result: the one host operation after the grid reshapes the [1,1] output array to a scalar. -/
theorem tail_value (c : Dev nD) :
    Pipeline.afterTail₀ cfgs (dats m) 0 (V0 m) [hostOps1] c main_v11 = shapeCast S_ (last m c) shapeCasts_S1x1_S_ := by
  unfold Pipeline.afterTail₀
  show StableHlo.after hostOps1 _ (Proc.devRef .tc main_v11) = _
  after_results
  exact congrArg (fun x => shapeCast S_ x shapeCasts_S1x1_S_)
    ((Pipeline.withArrays_arr spec0 launch0.win.arr_inj c _ _ 5).trans (final_out m c))

/-- The run, read: the result at the reshaped staging contents after point 9, the arguments as launched. -/
theorem run_value : θ_run defs (onTc (τ := τ) (main (F := F))) ⟨m, fun _ => 0, ρ⟩ fun r => ∀ c : Dev nD,
      r.2.mem ((c.tc : Thread nD τ).loc main_v11) = shapeCast S_ (last m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KerOutput

end
-- ==== Proof.KerPieces.lean ====
/-
  What each control case of the kernel body leaves behind, as values.

  The body runs in one of three cases: at the first grid point it zeroes the three accumulators before
  updating them; at the points in between it only updates them; at the last point it updates them and then
  folds them into the scalar loss.  In every case each accumulator ends at ONE whole-buffer store, whose
  value is the update applied to what the buffer held before: the zero block at the first point, the
  previous point's contents afterwards.  The loss stored at the last point is the finishing formula of the
  three accumulators as just updated.
-/
import proofs.«117046_g74603581931673_cont_9to1_m_1323_25_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KerPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The distance accumulator as updated at a point, from the point's blocks and what it held before. -/
abbrev upd0 (x0 : Vec F S1x1x10000 .i32) (x1 : Vec F S10000x64 .bf16) (x2 : Vec F S64x64 .bf16) (x3 : Vec F S64x64 .bf16) (x4 : Vec F S1x64 .f32) (p0 : Vec F S64x64 .f32) : Vec F S64x64 .f32 := k0_pay16 x1 x0 x4 x2 x3 p0
/-- The squared-distance accumulator as updated at a point. -/
abbrev upd1 (x0 : Vec F S1x1x10000 .i32) (x1 : Vec F S10000x64 .bf16) (x2 : Vec F S64x64 .bf16) (x3 : Vec F S64x64 .bf16) (x4 : Vec F S1x64 .f32) (p1 : Vec F S64x64 .f32) : Vec F S64x64 .f32 := k0_pay1 (k0_pay14 x1 x4 x2 x3) (k0_pay15 x0) p1
/-- The count accumulator as updated at a point. -/
abbrev upd2 (x0 : Vec F S1x1x10000 .i32) (x1 : Vec F S10000x64 .bf16) (x2 : Vec F S64x64 .bf16) (x3 : Vec F S64x64 .bf16) (x4 : Vec F S1x64 .f32) (p2 : Vec F S64x1 .f32) : Vec F S64x1 .f32 := k0_pay2 (k0_pay15 x0) p2
/-- The loss from the three accumulators. -/
abbrev fin (a0 a1 : Vec F S64x64 .f32) (a2 : Vec F S64x1 .f32) : Vec F S1x1 .f32 :=
  k0_pay3 (k0_pay7 a1 a2) (k0_pay8 a0 a1 a2) (k0_pay9 a2) (k0_pay10 a2)

theorem sA0 (c : Dev nD) (i : grid0.Coords) (arg1 : Memref sig .tc .vmem S1x1x10000 .i32) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (hc0 : cond0_0 i) (hc1 : ¬cond0_1 i) (x0 : Vec F S1x1x10000 .i32) (x1 : Vec F S10000x64 .bf16) (x2 : Vec F S64x64 .bf16) (x3 : Vec F S64x64 .bf16) (x4 : Vec F S1x64 .f32) :
    sout0_A_0 c i arg1 harg1 arg2 harg2 arg3 harg3 arg4 harg4 arg5 harg5 arg6 harg6 arg7 harg7 arg8 harg8 arg9 harg9 hc0 hc1 x0 x1 x2 x3 x4 = upd0 x0 x1 x2 x3 x4 k0_pay11 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S64x64) hz2, View.readCov_unit_zero (S := S64x64) _ hz2]
  simp only [View.readAt_eq_ld, harg1.read_unread, harg2.read_unread, harg3.read_unread, harg4.read_unread, harg5.read_unread,
    harg7.read_unread, harg8.read_unread, harg9.read_unread, View.ld_unit_zero (S := S64x64) hz2, View.ld_unit_zero (S := S10000x64) hz2,
    View.ld_unit_zero (S := S1x64) hz2, View.ld_unit_zero (S := S64x1) hz2, View.ld_unit_zero (S := S1x1x10000) hz3]

theorem sA1 (c : Dev nD) (i : grid0.Coords) (arg1 : Memref sig .tc .vmem S1x1x10000 .i32) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (hc0 : cond0_0 i) (hc1 : ¬cond0_1 i) (x0 : Vec F S1x1x10000 .i32) (x1 : Vec F S10000x64 .bf16) (x2 : Vec F S64x64 .bf16) (x3 : Vec F S64x64 .bf16) (x4 : Vec F S1x64 .f32) :
    sout0_A_1 c i arg1 harg1 arg2 harg2 arg3 harg3 arg4 harg4 arg5 harg5 arg6 harg6 arg7 harg7 arg8 harg8 arg9 harg9 hc0 hc1 x0 x1 x2 x3 x4 = upd1 x0 x1 x2 x3 x4 k0_pay12 := by
  unfold sout0_A_1
  rw [View.read_writes_eq_canon _ _ _ (scover0_A_1 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S64x64) hz2, View.readCov_unit_zero (S := S64x64) _ hz2]
  simp only [View.readAt_eq_ld, harg1.read_unread, harg2.read_unread, harg3.read_unread, harg4.read_unread, harg5.read_unread,
    harg7.read_unread, harg8.read_unread, harg9.read_unread, View.ld_unit_zero (S := S64x64) hz2, View.ld_unit_zero (S := S10000x64) hz2,
    View.ld_unit_zero (S := S1x64) hz2, View.ld_unit_zero (S := S64x1) hz2, View.ld_unit_zero (S := S1x1x10000) hz3]

theorem sA2 (c : Dev nD) (i : grid0.Coords) (arg1 : Memref sig .tc .vmem S1x1x10000 .i32) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (hc0 : cond0_0 i) (hc1 : ¬cond0_1 i) (x0 : Vec F S1x1x10000 .i32) (x1 : Vec F S10000x64 .bf16) (x2 : Vec F S64x64 .bf16) (x3 : Vec F S64x64 .bf16) (x4 : Vec F S1x64 .f32) :
    sout0_A_2 c i arg1 harg1 arg2 harg2 arg3 harg3 arg4 harg4 arg5 harg5 arg6 harg6 arg7 harg7 arg8 harg8 arg9 harg9 hc0 hc1 x0 x1 x2 x3 x4 = upd2 x0 x1 x2 x3 x4 k0_pay13 := by
  unfold sout0_A_2
  rw [View.read_writes_eq_canon _ _ _ (scover0_A_2 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S64x1) hz2, View.readCov_unit_zero (S := S64x1) _ hz2]
  simp only [View.readAt_eq_ld, harg1.read_unread, harg2.read_unread, harg3.read_unread, harg4.read_unread, harg5.read_unread,
    harg7.read_unread, harg8.read_unread, harg9.read_unread, View.ld_unit_zero (S := S64x64) hz2, View.ld_unit_zero (S := S10000x64) hz2,
    View.ld_unit_zero (S := S1x64) hz2, View.ld_unit_zero (S := S64x1) hz2, View.ld_unit_zero (S := S1x1x10000) hz3]

theorem sB0 (c : Dev nD) (i : grid0.Coords) (arg1 : Memref sig .tc .vmem S1x1x10000 .i32) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (hc0 : ¬cond0_0 i) (hc1 : ¬cond0_1 i) (x0 : Vec F S1x1x10000 .i32) (x1 : Vec F S10000x64 .bf16) (x2 : Vec F S64x64 .bf16) (x3 : Vec F S64x64 .bf16) (x4 : Vec F S1x64 .f32) (xs0 : Vec F S64x64 .f32) (xs1 : Vec F S64x64 .f32) (xs2 : Vec F S64x1 .f32) :
    sout0_B_0 c i arg1 harg1 arg2 harg2 arg3 harg3 arg4 harg4 arg5 harg5 arg6 harg6 arg7 harg7 arg8 harg8 arg9 harg9 hc0 hc1 x0 x1 x2 x3 x4 xs0 xs1 xs2 = upd0 x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz2]
  simp only [View.readAt_eq_ld, harg1.read_unread, harg2.read_unread, harg3.read_unread, harg4.read_unread, harg5.read_unread,
    harg7.read_unread, harg8.read_unread, harg9.read_unread, View.ld_unit_zero (S := S64x64) hz2, View.ld_unit_zero (S := S10000x64) hz2,
    View.ld_unit_zero (S := S1x64) hz2, View.ld_unit_zero (S := S64x1) hz2, View.ld_unit_zero (S := S1x1x10000) hz3]

theorem sB1 (c : Dev nD) (i : grid0.Coords) (arg1 : Memref sig .tc .vmem S1x1x10000 .i32) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (hc0 : ¬cond0_0 i) (hc1 : ¬cond0_1 i) (x0 : Vec F S1x1x10000 .i32) (x1 : Vec F S10000x64 .bf16) (x2 : Vec F S64x64 .bf16) (x3 : Vec F S64x64 .bf16) (x4 : Vec F S1x64 .f32) (xs0 : Vec F S64x64 .f32) (xs1 : Vec F S64x64 .f32) (xs2 : Vec F S64x1 .f32) :
    sout0_B_1 c i arg1 harg1 arg2 harg2 arg3 harg3 arg4 harg4 arg5 harg5 arg6 harg6 arg7 harg7 arg8 harg8 arg9 harg9 hc0 hc1 x0 x1 x2 x3 x4 xs0 xs1 xs2 = upd1 x0 x1 x2 x3 x4 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz2]
  simp only [View.readAt_eq_ld, harg1.read_unread, harg2.read_unread, harg3.read_unread, harg4.read_unread, harg5.read_unread,
    harg7.read_unread, harg8.read_unread, harg9.read_unread, View.ld_unit_zero (S := S64x64) hz2, View.ld_unit_zero (S := S10000x64) hz2,
    View.ld_unit_zero (S := S1x64) hz2, View.ld_unit_zero (S := S64x1) hz2, View.ld_unit_zero (S := S1x1x10000) hz3]

theorem sB2 (c : Dev nD) (i : grid0.Coords) (arg1 : Memref sig .tc .vmem S1x1x10000 .i32) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (hc0 : ¬cond0_0 i) (hc1 : ¬cond0_1 i) (x0 : Vec F S1x1x10000 .i32) (x1 : Vec F S10000x64 .bf16) (x2 : Vec F S64x64 .bf16) (x3 : Vec F S64x64 .bf16) (x4 : Vec F S1x64 .f32) (xs0 : Vec F S64x64 .f32) (xs1 : Vec F S64x64 .f32) (xs2 : Vec F S64x1 .f32) :
    sout0_B_2 c i arg1 harg1 arg2 harg2 arg3 harg3 arg4 harg4 arg5 harg5 arg6 harg6 arg7 harg7 arg8 harg8 arg9 harg9 hc0 hc1 x0 x1 x2 x3 x4 xs0 xs1 xs2 = upd2 x0 x1 x2 x3 x4 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_B
  dsimp only
  sl_unfold_words
  rw [View.canon_unit_zero hz2]
  simp only [View.readAt_eq_ld, harg1.read_unread, harg2.read_unread, harg3.read_unread, harg4.read_unread, harg5.read_unread,
    harg7.read_unread, harg8.read_unread, harg9.read_unread, View.ld_unit_zero (S := S64x64) hz2, View.ld_unit_zero (S := S10000x64) hz2,
    View.ld_unit_zero (S := S1x64) hz2, View.ld_unit_zero (S := S64x1) hz2, View.ld_unit_zero (S := S1x1x10000) hz3]

theorem sC0 (c : Dev nD) (i : grid0.Coords) (arg1 : Memref sig .tc .vmem S1x1x10000 .i32) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (hc0 : ¬cond0_0 i) (hc1 : cond0_1 i) (x0 : Vec F S1x1x10000 .i32) (x1 : Vec F S10000x64 .bf16) (x2 : Vec F S64x64 .bf16) (x3 : Vec F S64x64 .bf16) (x4 : Vec F S1x64 .f32) (xs0 : Vec F S64x64 .f32) (xs1 : Vec F S64x64 .f32) (xs2 : Vec F S64x1 .f32) :
    sout0_C_0 c i arg1 harg1 arg2 harg2 arg3 harg3 arg4 harg4 arg5 harg5 arg6 harg6 arg7 harg7 arg8 harg8 arg9 harg9 hc0 hc1 x0 x1 x2 x3 x4 xs0 xs1 xs2 = upd0 x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz2]
  simp only [View.readAt_eq_ld, harg1.read_unread, harg2.read_unread, harg3.read_unread, harg4.read_unread, harg5.read_unread,
    harg7.read_unread, harg8.read_unread, harg9.read_unread, View.ld_unit_zero (S := S64x64) hz2, View.ld_unit_zero (S := S10000x64) hz2,
    View.ld_unit_zero (S := S1x64) hz2, View.ld_unit_zero (S := S64x1) hz2, View.ld_unit_zero (S := S1x1x10000) hz3]

theorem sC1 (c : Dev nD) (i : grid0.Coords) (arg1 : Memref sig .tc .vmem S1x1x10000 .i32) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (hc0 : ¬cond0_0 i) (hc1 : cond0_1 i) (x0 : Vec F S1x1x10000 .i32) (x1 : Vec F S10000x64 .bf16) (x2 : Vec F S64x64 .bf16) (x3 : Vec F S64x64 .bf16) (x4 : Vec F S1x64 .f32) (xs0 : Vec F S64x64 .f32) (xs1 : Vec F S64x64 .f32) (xs2 : Vec F S64x1 .f32) :
    sout0_C_1 c i arg1 harg1 arg2 harg2 arg3 harg3 arg4 harg4 arg5 harg5 arg6 harg6 arg7 harg7 arg8 harg8 arg9 harg9 hc0 hc1 x0 x1 x2 x3 x4 xs0 xs1 xs2 = upd1 x0 x1 x2 x3 x4 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz2]
  simp only [View.readAt_eq_ld, harg1.read_unread, harg2.read_unread, harg3.read_unread, harg4.read_unread, harg5.read_unread,
    harg7.read_unread, harg8.read_unread, harg9.read_unread, View.ld_unit_zero (S := S64x64) hz2, View.ld_unit_zero (S := S10000x64) hz2,
    View.ld_unit_zero (S := S1x64) hz2, View.ld_unit_zero (S := S64x1) hz2, View.ld_unit_zero (S := S1x1x10000) hz3]

theorem sC2 (c : Dev nD) (i : grid0.Coords) (arg1 : Memref sig .tc .vmem S1x1x10000 .i32) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (hc0 : ¬cond0_0 i) (hc1 : cond0_1 i) (x0 : Vec F S1x1x10000 .i32) (x1 : Vec F S10000x64 .bf16) (x2 : Vec F S64x64 .bf16) (x3 : Vec F S64x64 .bf16) (x4 : Vec F S1x64 .f32) (xs0 : Vec F S64x64 .f32) (xs1 : Vec F S64x64 .f32) (xs2 : Vec F S64x1 .f32) :
    sout0_C_2 c i arg1 harg1 arg2 harg2 arg3 harg3 arg4 harg4 arg5 harg5 arg6 harg6 arg7 harg7 arg8 harg8 arg9 harg9 hc0 hc1 x0 x1 x2 x3 x4 xs0 xs1 xs2 = upd2 x0 x1 x2 x3 x4 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz2]
  simp only [View.readAt_eq_ld, harg1.read_unread, harg2.read_unread, harg3.read_unread, harg4.read_unread, harg5.read_unread,
    harg7.read_unread, harg8.read_unread, harg9.read_unread, View.ld_unit_zero (S := S64x64) hz2, View.ld_unit_zero (S := S10000x64) hz2,
    View.ld_unit_zero (S := S1x64) hz2, View.ld_unit_zero (S := S64x1) hz2, View.ld_unit_zero (S := S1x1x10000) hz3]

theorem oC5 (c : Dev nD) (i : grid0.Coords) (arg1 : Memref sig .tc .vmem S1x1x10000 .i32) (harg1 : arg1.IsWhole) (arg2 : Memref sig .tc .vmem S10000x64 .bf16) (harg2 : arg2.IsWhole) (arg3 : Memref sig .tc .vmem S64x64 .bf16) (harg3 : arg3.IsWhole) (arg4 : Memref sig .tc .vmem S64x64 .bf16) (harg4 : arg4.IsWhole) (arg5 : Memref sig .tc .vmem S1x64 .f32) (harg5 : arg5.IsWhole) (arg6 : Memref sig .tc .vmem S1x1 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S64x1 .f32) (harg9 : arg9.IsWhole) (hc0 : ¬cond0_0 i) (hc1 : cond0_1 i) (x0 : Vec F S1x1x10000 .i32) (x1 : Vec F S10000x64 .bf16) (x2 : Vec F S64x64 .bf16) (x3 : Vec F S64x64 .bf16) (x4 : Vec F S1x64 .f32) (xs0 : Vec F S64x64 .f32) (xs1 : Vec F S64x64 .f32) (xs2 : Vec F S64x1 .f32) :
    out0_C_5 c i arg1 harg1 arg2 harg2 arg3 harg3 arg4 harg4 arg5 harg5 arg6 harg6 arg7 harg7 arg8 harg8 arg9 harg9 hc0 hc1 x0 x1 x2 x3 x4 xs0 xs1 xs2
      = fin (upd0 x0 x1 x2 x3 x4 xs0) (upd1 x0 x1 x2 x3 x4 xs1) (upd2 x0 x1 x2 x3 x4 xs2) := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0 xs1 xs2)]
  unfold kernelRun0_C
  dsimp only
  sl_unfold_words
  rw [View.canon_unit_zero hz2]
  simp only [View.readCov_unit_zero (S := S64x64) _ hz2, View.readCov_unit_zero (S := S64x1) _ hz2]
  simp only [View.readAt_eq_ld, harg1.read_unread, harg2.read_unread, harg3.read_unread, harg4.read_unread, harg5.read_unread,
    harg7.read_unread, harg8.read_unread, harg9.read_unread, View.ld_unit_zero (S := S64x64) hz2, View.ld_unit_zero (S := S10000x64) hz2,
    View.ld_unit_zero (S := S1x64) hz2, View.ld_unit_zero (S := S64x1) hz2, View.ld_unit_zero (S := S1x1x10000) hz3]

end Cert.KernelIdeal.KerPieces

end
-- ==== Proof.KerChain.lean ====
/-
  The accumulators point by point.

  After the first grid point each accumulator holds its update of the zero block by that point's blocks; after
  every later point, its update of what the point before left by this point's blocks; and what the last point
  stores into the output is the finishing formula of the accumulators as that point leaves them.  This is the
  generated point-by-point record of the run, with each case's stores read as values.
-/
import proofs.«117046_g74603581931673_cont_9to1_m_1323_25_alg».proof.Proof.KerPieces

set_option maxRecDepth 16384

noncomputable section

open Idealize.ShloMosaic Idealize.ShloMosaic.TcCoe Idealize.SL.Sem

namespace Cert.KernelIdeal.KerChain

open Cert.KernelIdeal Cert.KernelIdeal.Gen Cert.KernelIdeal.KerPieces

variable {F : FTy → Type} [FloatOps F]
variable (m : (ℓ : Loc nD τ sig) → Buf (Elt F) ℓ)

theorem N10 : cfg0.N = 10 := N_0

/-- After the first point: the updates of the zero blocks. -/
theorem scr_zero (c : Dev nD) (h : 0 < cfg0.N) :
    (outsAt0 m c 0 h).2 = (upd0 (iblk m c 0 ⟨0, h⟩) (iblk m c 1 ⟨0, h⟩) (iblk m c 2 ⟨0, h⟩) (iblk m c 3 ⟨0, h⟩) (iblk m c 4 ⟨0, h⟩) k0_pay11, upd1 (iblk m c 0 ⟨0, h⟩) (iblk m c 1 ⟨0, h⟩) (iblk m c 2 ⟨0, h⟩) (iblk m c 3 ⟨0, h⟩) (iblk m c 4 ⟨0, h⟩) k0_pay12, upd2 (iblk m c 0 ⟨0, h⟩) (iblk m c 1 ⟨0, h⟩) (iblk m c 2 ⟨0, h⟩) (iblk m c 3 ⟨0, h⟩) (iblk m c 4 ⟨0, h⟩) k0_pay13) := by
  rw [outsAt0_A m c ⟨0, h⟩ rfl (by dsimp only; omega)]
  dsimp only
  rw [sA0, sA1, sA2]

/-- After a later point: the updates of what the point before left. -/
theorem scr_succ (c : Dev nD) (n : ℕ) (h : n + 1 < cfg0.N) :
    (outsAt0 m c (n + 1) h).2 = (upd0 (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1,
      upd1 (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.2.1,
      upd2 (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.2.2) := by
  have hN : n + 1 < 10 := lt_of_lt_of_eq h N10
  have h0 : ¬(⟨n + 1, h⟩ : Fin cfg0.N).val % 10 = 0 := by dsimp only; omega
  by_cases h9 : (⟨n + 1, h⟩ : Fin cfg0.N).val % 10 = 9
  · rw [outsAt0_C m c ⟨n + 1, h⟩ h0 h9]
    dsimp only
    rw [sC0, sC1, sC2]
    rfl
  · rw [outsAt0_B m c ⟨n + 1, h⟩ h0 h9]
    dsimp only
    rw [sB0, sB1, sB2]
    rfl

/-- What the last point stores into the output: the finishing formula of the accumulators it leaves. -/
theorem out_last (c : Dev nD) (h : 9 < cfg0.N) :
    (outsAt0 m c 9 h).1 = fin (outsAt0 m c 9 h).2.1 (outsAt0 m c 9 h).2.2.1 (outsAt0 m c 9 h).2.2.2 := by
  rw [outsAt0_C m c ⟨9, h⟩ (by dsimp only; omega) rfl]
  dsimp only
  rw [oC5, sC0, sC1, sC2]

end Cert.KernelIdeal.KerChain

end
-- ==== Proof.KerHost.lean ====
/-
  What the kernel's grid finds in its arrays, and what each window hands the body.

  Before the grid the host prepares five arrays: the labels reshaped to ten rows of 10000; the embeddings (a change
  of float format, the identity on the extended reals); the centroids transposed and multiplied by `-2`; a matrix
  of ones; and the row of the centroids' squared norms.  At grid point `t` the label and embedding windows hand
  the body block `t` — labels and rows `10000 t … 10000 t + 9999` — and the other three windows the whole array.
-/
import proofs.«117046_g74603581931673_cont_9to1_m_1323_25_alg».proof.Proof.Gen.KernelIdeal.Frame
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo

namespace Cert.KernelIdeal.KerHost

open Cert.KernelIdeal Cert.KernelIdeal.Gen

variable (m : (ℓ : Loc nD τ sig) → Buf (Elt Ideal) ℓ)

theorem V_v0 (c : Dev nD) : (V m c main_v0 : S10x1x10000.Idx → BitVec 32)
    = shapeCast S10x1x10000 (m ((c : Thread nD τ).loc main_arg1)) shapeCasts_S100000_S10x1x10000 := by
  show StableHlo.after hostOps0 (fun b => m (c, b)) (Proc.devRef .tc main_v0) = _
  after_results; rfl

theorem V_v1 (c : Dev nD) : (V m c main_v1 : S100000x64.Idx → EReal)
    = (truncf (F := Ideal) .bf16 (m ((c : Thread nD τ).loc main_arg0) : FVec Ideal S100000x64 .f32) bitsLt_bf16_f32 : FVec Ideal S100000x64 .bf16) := by
  show StableHlo.after hostOps0 (fun b => m (c, b)) (Proc.devRef .tc main_v1) = _
  after_results

theorem V_v5 (c : Dev nD) : (V m c main_v5 : S64x64.Idx → EReal)
    = truncf .bf16 (mulf (broadcastInDim S64x64 ![] bcast_S_S64x64 (constant (F := Ideal) S_ .f32 0xC0000000#32))
        (transpose S64x64 [1, 0] (m ((c : Thread nD τ).loc main_arg2)) transposes_S64x64_S64x64_1_0)) bitsLt_bf16_f32 := by
  show StableHlo.after hostOps0 (fun b => m (c, b)) (Proc.devRef .tc main_v5) = _
  after_results

theorem V_v6 (c : Dev nD) : (V m c main_v6 : S64x64.Idx → EReal)
    = broadcastInDim S64x64 ![] bcast_S_S64x64 (constant (F := Ideal) S_ .bf16 0x3F80#16) := by
  show StableHlo.after hostOps0 (fun b => m (c, b)) (Proc.devRef .tc main_v6) = _
  after_results

theorem V_v9 (c : Dev nD) : (V m c main_v9 : S1x64.Idx → EReal)
    = broadcastInDim S1x64 ![1] bcast_S64_S1x64_1 (Host.reduceAdd (F := Ideal) (mulf (m ((c : Thread nD τ).loc main_arg2)) (m ((c : Thread nD τ).loc main_arg2)))
        (constant (F := Ideal) S_ .f32 0x00000000#32) reducesTo_S64x64_S64_d1 h_S_) := by
  show StableHlo.after hostOps0 (fun b => m (c, b)) (Proc.devRef .tc main_v9) = _
  after_results

/-! ## The windows' blocks at a grid point -/

/-- Where each window's block sits: the label and embedding windows move with the point, the others stay. -/
theorem idx_facts : ∀ t : Fin cfg0.N,
    win0_0.index t (0 : Fin 3) = t.val ∧ win0_0.index t (1 : Fin 3) = 0 ∧ win0_0.index t (2 : Fin 3) = 0 ∧
    win0_1.index t (0 : Fin 2) = t.val ∧ win0_1.index t (1 : Fin 2) = 0 ∧
    win0_2.index t (0 : Fin 2) = 0 ∧ win0_2.index t (1 : Fin 2) = 0 ∧
    win0_3.index t (0 : Fin 2) = 0 ∧ win0_3.index t (1 : Fin 2) = 0 ∧
    win0_4.index t (0 : Fin 2) = 0 ∧ win0_4.index t (1 : Fin 2) = 0 :=
  (by decide +kernel : ∀ t : Fin grid0.N,
    win0_0.index t (0 : Fin 3) = t.val ∧ win0_0.index t (1 : Fin 3) = 0 ∧ win0_0.index t (2 : Fin 3) = 0 ∧
    win0_1.index t (0 : Fin 2) = t.val ∧ win0_1.index t (1 : Fin 2) = 0 ∧
    win0_2.index t (0 : Fin 2) = 0 ∧ win0_2.index t (1 : Fin 2) = 0 ∧
    win0_3.index t (0 : Fin 2) = 0 ∧ win0_3.index t (1 : Fin 2) = 0 ∧
    win0_4.index t (0 : Fin 2) = 0 ∧ win0_4.index t (1 : Fin 2) = 0)

theorem point_lt (t : Fin cfg0.N) (r : Fin 10000) : t.val * 10000 + r.val < 100000 := by
  have hN : t.val < 10 := lt_of_lt_of_eq t.isLt (show cfg0.N = 10 from N_0)
  have := r.isLt; omega

/-- The three argument arrays, as functions of their indices. -/
abbrev embA (c : Dev nD) : S100000x64.Idx → EReal := m ((c : Thread nD τ).loc main_arg0)
abbrev lblA (c : Dev nD) : S100000.Idx → BitVec 32 := m ((c : Thread nD τ).loc main_arg1)
abbrev cenA (c : Dev nD) : S64x64.Idx → EReal := m ((c : Thread nD τ).loc main_arg2)

/-- Row `r` of the embedding block at point `t` is row `10000 t + r` of the embeddings. -/
theorem blk1_apply (c : Dev nD) (t : Fin cfg0.N) (r : Fin 10000) (d : Fin 64) :
    (iblk m c 1 t : Vec Ideal S10000x64 .bf16) (ix2 r d) = embA m c (ix2 ⟨t.val * 10000 + r.val, point_lt t r⟩ d) := by
  unfold iblk
  rw [View.read_apply]
  show V m c main_v1 _ = _
  rw [V_v1, truncf_apply]
  refine congrArg _ (funext fun a => Fin.ext ?_)
  match a with
  | ⟨0, _⟩ => show win0_1.index t (0 : Fin 2) * 10000 + 1 * r.val = t.val * 10000 + r.val; rw [(idx_facts t).2.2.2.1]; omega
  | ⟨1, _⟩ => show win0_1.index t (1 : Fin 2) * 64 + 1 * d.val = d.val; rw [(idx_facts t).2.2.2.2.1]; omega

/-- Label `r` of the label block at point `t` is label `10000 t + r`. -/
theorem blk0_apply (c : Dev nD) (t : Fin cfg0.N) (r : Fin 10000) :
    (iblk m c 0 t : Vec Ideal S1x1x10000 .i32) (ix3 (0 : Fin 1) (0 : Fin 1) r) = lblA m c (ix1 ⟨t.val * 10000 + r.val, point_lt t r⟩) := by
  have hN : t.val < 10 := lt_of_lt_of_eq t.isLt (show cfg0.N = 10 from N_0)
  unfold iblk
  rw [View.read_apply]
  show V m c main_v0 _ = _
  rw [V_v0]
  refine shapeCast_apply _ _ _ _ ?_
  show (S100000.rowMajor (ix1 ⟨t.val * 10000 + r.val, point_lt t r⟩)).val = (S10x1x10000.rowMajor (((cfg0.win 0).blk t).view.emb (ix3 (0 : Fin 1) (0 : Fin 1) r))).val
  rw [Shape.rowMajor_val_one, Shape.rowMajor_val_three]
  show t.val * 10000 + r.val = ((win0_0.index t (0 : Fin 3) * 1 + 1 * 0) * 1 + (win0_0.index t (1 : Fin 3) * 1 + 1 * 0)) * 10000 + (win0_0.index t (2 : Fin 3) * 10000 + 1 * r.val)
  rw [(idx_facts t).1, (idx_facts t).2.1, (idx_facts t).2.2.1]; omega

/-- The word `-2.0`. -/
theorem ofBits_neg_two : Ideal.ofBits .f32 0xC0000000#32 = (((-2 : ℝ)) : EReal) := by
  simp [Ideal.ofBits, Ideal.ieee, -EReal.coe_mul]; norm_num

/-- The second window's block is the centroids transposed and scaled by `-2`. -/
theorem blk2_apply (c : Dev nD) (t : Fin cfg0.N) (d j : Fin 64) :
    (iblk m c 2 t : Vec Ideal S64x64 .bf16) (ix2 d j) = ((-2 : ℝ) : EReal) * cenA m c (ix2 j d) := by
  unfold iblk
  rw [View.read_apply]
  show V m c main_v5 _ = _
  have e : (((cfg0.win 2).blk t).view.emb (ix2 d j) : S64x64.Idx) = ix2 d j := by
    funext a; apply Fin.ext
    match a with
    | ⟨0, _⟩ => show win0_2.index t (0 : Fin 2) * 64 + 1 * d.val = d.val; rw [(idx_facts t).2.2.2.2.2.1]; omega
    | ⟨1, _⟩ => show win0_2.index t (1 : Fin 2) * 64 + 1 * j.val = j.val; rw [(idx_facts t).2.2.2.2.2.2.1]; omega
  rw [e, V_v5, truncf_apply, mulf_apply, broadcastInDim_scalar_apply, constant_apply, ofBits_neg_two, transpose_ix2_apply]

/-- The third window's block is all ones. -/
theorem blk3_apply (c : Dev nD) (t : Fin cfg0.N) (d j : Fin 64) :
    (iblk m c 3 t : Vec Ideal S64x64 .bf16) (ix2 d j) = ((1 : ℝ) : EReal) := by
  unfold iblk
  rw [View.read_apply]
  show V m c main_v6 _ = _
  rw [V_v6, broadcastInDim_scalar_apply, constant_apply, Ideal.ofBits_one_bf16]
  norm_cast

/-- The fourth window's block is the row of the centroids' squared norms. -/
theorem blk4_apply (c : Dev nD) (t : Fin cfg0.N) (j : Fin 64) :
    (iblk m c 4 t : Vec Ideal S1x64 .f32) (ix2 (0 : Fin 1) j) = 0 + ∑ d : Fin 64, cenA m c (ix2 j d) * cenA m c (ix2 j d) := by
  unfold iblk
  rw [View.read_apply]
  show V m c main_v9 _ = _
  rw [V_v9]
  have hk : ∀ a : Fin S64.rank, ((ix1 j : S64.Idx) a).val = if S64.size a = 1 then 0
      else ((((cfg0.win 4).blk t).view.emb (ix2 (0 : Fin 1) j) : S1x64.Idx) ((![1] : Fin 1 → Fin 2) a)).val := by
    intro a
    match a with
    | ⟨0, _⟩ =>
      have h64 : ¬(S64.size (⟨0, by decide⟩ : Fin S64.rank) = 1) := by decide
      rw [if_neg h64]
      show j.val = win0_4.index t (1 : Fin 2) * 64 + 1 * j.val
      rw [(idx_facts t).2.2.2.2.2.2.2.2.2.2]; omega
  rw [broadcastInDim_apply _ _ _ _ (ix1 j) hk]
  rw [hostReduceAdd_apply, Ideal.hostReduceAdd_single reducesTo_S64x64_S64_d1 (by decide), constant_apply, Ideal.ofBits_zero_f32]
  refine congrArg (0 + ·) (Finset.sum_congr rfl fun d _ => ?_)
  rw [mulf_apply]
  have e : (Shape.Reduces.lift (by decide : S64x64.Reduces [1] S64) (ix1 j) d : S64x64.Idx) = ix2 j d := by
    funext a; apply Fin.ext
    match a with
    | ⟨0, _⟩ => rfl
    | ⟨1, _⟩ => rfl
  rw [e]
  rfl

end Cert.KernelIdeal.KerHost

end
-- ==== Proof.LossSpec.lean ====
/-
  The centroid loss as a function of real data.

  Points are indexed by a finite type `ι`, clusters and features by `Fin 64`.  For a point `n` and a
  cluster `j`: `oh n j` is the one-hot weight of `n` in `j`, `q n j` the clamped squared distance
  from `n` to centroid `j`, and `s n j` the distance, `s n j * s n j = q n j`.

  Two arrangements of the same loss are defined.  The first keeps, per point, the hinge
  `max ((10 - s)²) 0` against every centroid and sums it over the points of a cluster.  The second
  only keeps three accumulators per cluster — the count, `∑ oh · s` and `∑ oh · q` against every
  centroid — and expands `(10 - s)² = 100 - 20 s + q`.  `finishNum_eq_numRef` says the numerators
  agree; the denominators are the same expression.
-/
import Mathlib

noncomputable section

namespace Cert.LossSpec

open Finset

variable {ι : Type} [Fintype ι]

/-- The number of points of cluster `k` (a sum of one-hot weights). -/
def count (oh : ι → Fin 64 → ℝ) (k : Fin 64) : ℝ := ∑ n, oh n k

/-- The per-cluster accumulator `∑ₙ oh n k · x n j`. -/
def accum (oh x : ι → Fin 64 → ℝ) (k j : Fin 64) : ℝ := ∑ n, oh n k * x n j

/-- The identity matrix. -/
def eye (k j : Fin 64) : ℝ := if k = j then 1 else 0

/-- The number of non-empty clusters. -/
def validCount (w : Fin 64 → ℝ) : ℝ := ∑ k, if 0 < w k then 1 else 0

/-- The clamped squared distance from point `n` to centroid `j`. -/
def sqDist (E : ι → Fin 64 → ℝ) (C : Fin 64 → Fin 64 → ℝ) (ε : ℝ) (n : ι) (j : Fin 64) : ℝ :=
  max (((∑ d, E n d * E n d) + ∑ d, C j d * C j d) - 2 * ∑ d, E n d * C j d) ε

/-- The hinge `max ((10 - s)²) 0`. -/
def hinge (s : ι → Fin 64 → ℝ) (n : ι) (j : Fin 64) : ℝ := max ((10 - s n j) * (10 - s n j)) 0

/-- Attraction of cluster `k`, from per-point terms. -/
def attrRef (oh s : ι → Fin 64 → ℝ) (k : Fin 64) : ℝ :=
  (∑ n, oh n k * (s n k * s n k)) / max (count oh k) 1

/-- Repulsion of cluster `k`, from per-point terms. -/
def repRef (oh s : ι → Fin 64 → ℝ) (k : Fin 64) : ℝ :=
  ((∑ n, oh n k * ∑ j, hinge s n j) - ∑ n, oh n k * hinge s n k) / max (count oh k * 63) 1

/-- The loss's numerator, from per-point terms. -/
def numRef (oh s : ι → Fin 64 → ℝ) : ℝ :=
  (∑ k, if 0 < count oh k then attrRef oh s k else 0) + ∑ k, if 0 < count oh k then repRef oh s k else 0

/-- The loss's numerator from the three accumulators `w` (counts), `M1` (`∑ oh · s`), `M2` (`∑ oh · q`). -/
def finishNum (w : Fin 64 → ℝ) (M1 M2 : Fin 64 → Fin 64 → ℝ) : ℝ :=
  (∑ k, if 0 < w k then (∑ j, M2 k j * eye k j) / max (w k) 1 else 0)
  + ∑ k, if 0 < w k then
      (((6400 * w k - 20 * ∑ j, M1 k j) + ∑ j, M2 k j)
        - ((100 * w k - 20 * ∑ j, M1 k j * eye k j) + ∑ j, M2 k j * eye k j)) / max (w k * 63) 1
    else 0

/-- The diagonal of an accumulator: `∑ⱼ accum oh x k j · eye k j = ∑ₙ oh n k · x n k`. -/
theorem accum_diag (oh x : ι → Fin 64 → ℝ) (k : Fin 64) :
    ∑ j, accum oh x k j * eye k j = ∑ n, oh n k * x n k := by
  unfold eye
  simp [accum]

/-- The row sum of an accumulator: `∑ⱼ accum oh x k j = ∑ₙ oh n k · ∑ⱼ x n j`. -/
theorem accum_row (oh x : ι → Fin 64 → ℝ) (k : Fin 64) :
    ∑ j, accum oh x k j = ∑ n, oh n k * ∑ j, x n j := by
  unfold accum
  rw [Finset.sum_comm]
  exact Finset.sum_congr rfl fun n _ => (Finset.mul_sum _ _ _).symm

/-- A square is non-negative, so the hinge is `(10 - s)² = 100 - 20 s + q` when `s² = q`. -/
theorem hinge_eq (s q : ι → Fin 64 → ℝ) (hs : ∀ n j, s n j * s n j = q n j) (n : ι) (j : Fin 64) :
    hinge s n j = (100 - 20 * s n j) + q n j := by
  unfold hinge
  rw [max_eq_left (mul_self_nonneg _), ← hs n j]
  ring

/-- Summing the hinge over all 64 centroids and the points of cluster `k`:
`∑ₙ oh n k · ∑ⱼ hinge = 6400 · count − 20 · ∑ⱼ M1 k j + ∑ⱼ M2 k j`. -/
theorem sum_hinge_row (oh s q : ι → Fin 64 → ℝ) (hs : ∀ n j, s n j * s n j = q n j) (k : Fin 64) :
    ∑ n, oh n k * ∑ j, hinge s n j
      = (6400 * count oh k - 20 * ∑ j, accum oh s k j) + ∑ j, accum oh q k j := by
  rw [accum_row, accum_row]
  unfold count
  rw [Finset.mul_sum, Finset.mul_sum, ← Finset.sum_sub_distrib, ← Finset.sum_add_distrib]
  refine Finset.sum_congr rfl fun n _ => ?_
  have h : ∑ j, hinge s n j = (6400 - 20 * ∑ j, s n j) + ∑ j, q n j := by
    simp only [hinge_eq s q hs]
    rw [Finset.sum_add_distrib, Finset.sum_sub_distrib, ← Finset.mul_sum]
    simp
    norm_num
  rw [h]
  ring

/-- Summing the hinge against the own centroid over the points of cluster `k`:
`∑ₙ oh n k · hinge s n k = 100 · count − 20 · (M1 k k) + M2 k k`. -/
theorem sum_hinge_diag (oh s q : ι → Fin 64 → ℝ) (hs : ∀ n j, s n j * s n j = q n j) (k : Fin 64) :
    ∑ n, oh n k * hinge s n k
      = (100 * count oh k - 20 * ∑ j, accum oh s k j * eye k j) + ∑ j, accum oh q k j * eye k j := by
  rw [accum_diag, accum_diag]
  unfold count
  rw [Finset.mul_sum, Finset.mul_sum, ← Finset.sum_sub_distrib, ← Finset.sum_add_distrib]
  refine Finset.sum_congr rfl fun n _ => ?_
  rw [hinge_eq s q hs]
  ring

/-- The numerator computed from the three accumulators equals the numerator from per-point terms. -/
theorem finishNum_eq_numRef (oh s q : ι → Fin 64 → ℝ) (hs : ∀ n j, s n j * s n j = q n j) :
    finishNum (count oh) (accum oh s) (accum oh q) = numRef oh s := by
  unfold finishNum numRef
  congr 1
  · refine Finset.sum_congr rfl fun k _ => ?_
    unfold attrRef
    rw [accum_diag]
    simp only [hs]
  · refine Finset.sum_congr rfl fun k _ => ?_
    unfold repRef
    rw [sum_hinge_row oh s q hs, sum_hinge_diag oh s q hs]

/-- The expanded form `−2 E·C + |E|² + |C|²` of the squared distance, clamped below by `ε`. -/
theorem sqDist_expanded (E : ι → Fin 64 → ℝ) (C : Fin 64 → Fin 64 → ℝ) (ε : ℝ) (n : ι) (j : Fin 64) :
    max (((∑ d, E n d * (-2 * C j d)) + ∑ d, (E n d * E n d) * 1) + ∑ d, C j d * C j d) ε
      = sqDist E C ε n j := by
  unfold sqDist
  congr 1
  have h1 : ∑ d, E n d * (-2 * C j d) = -(2 * ∑ d, E n d * C j d) := by
    rw [Finset.mul_sum, ← Finset.sum_neg_distrib]
    exact Finset.sum_congr rfl fun d _ => by ring
  rw [h1]
  simp only [mul_one]
  ring

/-- The clamped squared distance is positive when the clamp `ε` is. -/
theorem sqDist_pos (E : ι → Fin 64 → ℝ) (C : Fin 64 → Fin 64 → ℝ) (ε : ℝ) (hε : 0 < ε) (n : ι)
    (j : Fin 64) : 0 < sqDist E C ε n j :=
  lt_of_lt_of_le hε (le_max_right _ _)

/-- The square of the square root of the clamped squared distance is that distance. -/
theorem sqrt_mul_self_sqDist (E : ι → Fin 64 → ℝ) (C : Fin 64 → Fin 64 → ℝ) (ε : ℝ) (hε : 0 < ε)
    (n : ι) (j : Fin 64) :
    Real.sqrt (sqDist E C ε n j) * Real.sqrt (sqDist E C ε n j) = sqDist E C ε n j :=
  Real.mul_self_sqrt (sqDist_pos E C ε hε n j).le

/-- A sum over the first `t + 1` blocks of 10000 is the sum over the first `t` blocks plus the sum
over block `t`. -/
theorem sum_range_succ_block (f : ℕ → ℝ) (t : ℕ) :
    ∑ n ∈ Finset.range ((t + 1) * 10000), f n
      = (∑ n ∈ Finset.range (t * 10000), f n) + ∑ r : Fin 10000, f (t * 10000 + r.val) := by
  rw [show (t + 1) * 10000 = t * 10000 + 10000 by ring, Finset.sum_range_add,
    Finset.sum_range fun x => f (t * 10000 + x)]

/-- A sum over the first block of 10000. -/
theorem sum_range_first_block (f : ℕ → ℝ) :
    ∑ n ∈ Finset.range (1 * 10000), f n = ∑ r : Fin 10000, f (0 * 10000 + r.val) := by
  simp only [one_mul, zero_mul, zero_add]
  exact Finset.sum_range f

/-- A sum over `range 100000` as a sum over `Fin 100000`. -/
theorem sum_range_all (f : ℕ → ℝ) :
    ∑ n ∈ Finset.range 100000, f n = ∑ n : Fin 100000, f n.val :=
  Finset.sum_range f

end Cert.LossSpec

end
-- ==== Proof.LossData.lean ====
/-
  The data both programs' values are stated over.

  `eps` is the real number the clamp literal `0x2B8CBCCC` (the float nearest 1e-12) denotes: the dyadic
  `9223372 · 2⁻⁶³`, positive.  `ohOf lab n k` is the one-hot weight of point `n` in cluster `k`: one when the
  label word of `n` is the word `k`, else zero — for a label outside `0 … 63` every weight is zero.
  `dist E C n j` is the distance from point `n` to centroid `j`, the root of the clamped squared distance.
-/
import Idealize.ShloMosaic.PureOps.Ideal
import Idealize.ShloMosaic.PureOps.Ideal.Laws
import proofs.«117046_g74603581931673_cont_9to1_m_1323_25_alg».proof.Proof.LossSpec

noncomputable section

namespace Cert.LossData

open Idealize.ShloMosaic Cert.LossSpec

/-- The real the clamp literal denotes. -/
def eps : ℝ := 9223372 * (2 : ℝ) ^ (-63 : ℤ)

theorem eps_pos : 0 < eps := by unfold eps; positivity

/-- The clamp literal's word denotes `eps`. -/
theorem ofBits_eps : Ideal.ofBits .f32 0x2B8CBCCC#32 = ((eps : ℝ) : EReal) := by
  simp [Ideal.ofBits, Ideal.ieee, eps, -EReal.coe_mul]

/-- The one-hot weight of a point with label word `l` in cluster `k`. -/
def ohw (l : BitVec 32) (k : Fin 64) : ℝ := if l = BitVec.ofNat 32 k.val then 1 else 0

/-- The one-hot weights of an array of label words. -/
def ohOf {ι : Type} (lab : ι → BitVec 32) (n : ι) (k : Fin 64) : ℝ := ohw (lab n) k

/-- The clamped squared distance. -/
def sq {ι : Type} (E : ι → Fin 64 → ℝ) (C : Fin 64 → Fin 64 → ℝ) (n : ι) (j : Fin 64) : ℝ := sqDist E C eps n j

/-- The distance. -/
def dist {ι : Type} (E : ι → Fin 64 → ℝ) (C : Fin 64 → Fin 64 → ℝ) (n : ι) (j : Fin 64) : ℝ := Real.sqrt (sq E C n j)

theorem sq_pos {ι : Type} [Fintype ι] (E : ι → Fin 64 → ℝ) (C : Fin 64 → Fin 64 → ℝ) (n : ι) (j : Fin 64) : 0 < sq E C n j :=
  sqDist_pos E C eps eps_pos n j

theorem dist_mul_self {ι : Type} [Fintype ι] (E : ι → Fin 64 → ℝ) (C : Fin 64 → Fin 64 → ℝ) (n : ι) (j : Fin 64) :
    dist E C n j * dist E C n j = sq E C n j :=
  sqrt_mul_self_sqDist E C eps eps_pos n j

/-- The loss, as the extended real both programs end at. -/
def loss (lab : Fin 100000 → BitVec 32) (E : Fin 100000 → Fin 64 → ℝ) (C : Fin 64 → Fin 64 → ℝ) : EReal :=
  Ideal.div ((numRef (ohOf lab) (dist E C) : ℝ) : EReal) ((validCount (count (ohOf lab)) : ℝ) : EReal)

end Cert.LossData

end
-- ==== Proof.KerBlock.lean ====
/-
  The kernel's body arithmetic read at an index.

  Per block of 10000 points the body forms the clamped squared distances
  d2(r, j) = max((Σ_d e(r,d)·cmat(d,j) + Σ_d e(r,d)²·ones(d,j)) + bb(j), ε), the transposed one-hot weights
  oht(k, r) = [label_r = k], and adds oht·d, oht·d2 and the row sums of oht to three accumulators. With
  cmat(d,j) = −2·C(j,d), ones = 1 and bb(j) = Σ_d C(j,d)², d2 is the clamped squared distance of the specification.
-/
import proofs.«117046_g74603581931673_cont_9to1_m_1323_25_alg».proof.Proof.Gen.KernelIdeal.Skeleton
import proofs.«117046_g74603581931673_cont_9to1_m_1323_25_alg».proof.Proof.LossData
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KerBlock

open Idealize.ShloMosaic Idealize.ShloMosaic.ValueIdx Cert.KernelIdeal Cert.KernelIdeal.Gen
open scoped BigOperators

/-! ## The zero blocks -/

theorem pay11_apply (k j : Fin 64) : k0_pay11 (F := Ideal) (ix2 k j) = ((0 : ℝ) : EReal) := by
  unfold k0_pay11
  rw [shapeCast_self]
  exact Ideal.ofBits_zero_f32

/-! ## A plain matrix product into the zero accumulator -/

/-- The left operand's row is the output's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem plain_apply_zero {M K N : ℕ} {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact plain_rhs_col _ _)
  rw [el, er]

/-- The two products' dimension numbers are the plain ones. -/
theorem dotA_eq : dot_S10000x64_S64x64_S10000x64_1_0_0_1_n_n = DotDims.plain 10000 64 64 := rfl
theorem dotB_eq : dot_S64x10000_S10000x64_S64x64_1_0_0_1_n_n = DotDims.plain 64 10000 64 := rfl

/-- A finite sum of reals, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The larger of two reals read as extended reals is the larger real read as one. -/
theorem coe_max (a b : ℝ) : max (a : EReal) (b : EReal) = ((max a b : ℝ) : EReal) :=
  (EReal.coe_strictMono.monotone.map_max).symm

/-! ## The clamped squared distances -/

theorem pay14_apply (x1 : Vec Ideal S10000x64 .bf16) (x4 : Vec Ideal S1x64 .f32) (x2 x3 : Vec Ideal S64x64 .bf16)
    (Eb : Fin 10000 → Fin 64 → ℝ) (C : Fin 64 → Fin 64 → ℝ)
    (hx1 : ∀ r d, x1 (ix2 r d) = ((Eb r d : ℝ) : EReal))
    (hx2 : ∀ d j, x2 (ix2 d j) = (((-2) * C j d : ℝ) : EReal))
    (hx3 : ∀ d j, x3 (ix2 d j) = ((1 : ℝ) : EReal))
    (hx4 : ∀ j, x4 (ix2 (0 : Fin 1) j) = ((∑ d, C j d * C j d : ℝ) : EReal))
    (r : Fin 10000) (j : Fin 64) :
    k0_pay14 (F := Ideal) x1 x4 x2 x3 (ix2 r j) = ((Cert.LossData.sq Eb C r j : ℝ) : EReal) := by
  unfold k0_pay14
  simp only [shapeCast_self, maximumf_apply, addf_apply, broadcast_apply, matmul, dotA_eq]
  rw [plain_apply_zero, plain_apply_zero, broadcastTo_1b_ab_apply, hx4]
  simp only [mulf_apply, hx1, hx2, hx3, ← EReal.coe_mul, coe_sum, ← EReal.coe_add]
  show max _ (Ideal.ofBits .f32 0x2B8CBCCC#32) = _
  rw [Cert.LossData.ofBits_eps, coe_max]
  exact congrArg _ (Cert.LossSpec.sqDist_expanded Eb C Cert.LossData.eps r j)

theorem pay12_apply (k j : Fin 64) : k0_pay12 (F := Ideal) (ix2 k j) = ((0 : ℝ) : EReal) := by
  unfold k0_pay12
  rw [shapeCast_self]
  exact Ideal.ofBits_zero_f32

theorem pay13_apply (k : Fin 64) : k0_pay13 (F := Ideal) (ix2 k (0 : Fin 1)) = ((0 : ℝ) : EReal) := by
  unfold k0_pay13
  rw [shapeCast_self]
  exact Ideal.ofBits_zero_f32

/-! ## The transposed one-hot weights -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An integer comparison at an index compares the elements. -/
theorem cmpi_apply {s : Shape} {w : ℕ} (p : CmpIPredicate) (a b : IVec s w) (i : s.Idx) :
    cmpi p a b i = IntOp.cmpi p (a i) (b i) := rfl

/-- The bit "the label word is the word k", widened to 32 bits and read signed, is the one-hot weight. -/
theorem onehot_word (l : BitVec 32) (k : Fin 64) :
    FloatOps.sitofp (F := Ideal) .f32 ((IntOp.cmpi .eq l (BitVec.ofNat 32 k.val)).setWidth 32)
      = ((Cert.LossData.ohw l k : ℝ) : EReal) := by
  show (((((IntOp.cmpi .eq l (BitVec.ofNat 32 k.val)).setWidth 32).toInt : ℤ) : ℝ) : EReal) = _
  unfold Cert.LossData.ohw IntOp.cmpi
  by_cases h : l = BitVec.ofNat 32 k.val
  · rw [if_pos h]; subst h; simp
  · rw [if_neg h]
    have hb : (l == BitVec.ofNat 32 k.val) = false := by simpa using h
    simp [hb]

theorem pay15_apply (x0 : Vec Ideal S1x1x10000 .i32) (k : Fin 64) (r : Fin 10000) :
    k0_pay15 (F := Ideal) x0 (ix2 k r)
      = ((Cert.LossData.ohw (x0 (ix3 (0 : Fin 1) (0 : Fin 1) r)) k : ℝ) : EReal) := by
  unfold k0_pay15
  simp only [sitofp_apply, extui_apply, cmpi_apply]
  rw [broadcastTo_1b_ab_apply, shapeCast_1ab_ab_apply, broadcastTo_a1_ab_apply, iota_single_apply]
  exact onehot_word _ k

end Cert.KernelIdeal.KerBlock

end
-- ==== Proof.KerAccum.lean ====
/-
  The three accumulator updates read at an index: each adds to the loaded accumulator a sum over the block's 10000 points,
  of weight · distance, weight · squared distance, and weight.
-/
import proofs.«117046_g74603581931673_cont_9to1_m_1323_25_alg».proof.Proof.KerBlock

noncomputable section

namespace Cert.KernelIdeal.KerBlock

open Idealize.ShloMosaic Idealize.ShloMosaic.ValueIdx Cert.KernelIdeal Cert.KernelIdeal.Gen
open scoped BigOperators

/-! ## Small readings -/

/-- A reciprocal square root at an index is the element's. -/
theorem rsqrt_apply {s : Shape} {φ : FTy} (a : FVec Ideal s φ) (i : s.Idx) : rsqrt a i = Ideal.rsqrt (a i) := rfl

/-- For a positive real q, q · (1/√q) = √q, on the extended reals. -/
theorem mul_rsqrt_coe {q : ℝ} (hq : 0 < q) : (q : EReal) * Ideal.rsqrt (q : EReal) = ((Real.sqrt q : ℝ) : EReal) := by
  rw [Ideal.rsqrt_coe, if_neg (not_lt.mpr hq.le), if_neg hq.ne', ← EReal.coe_mul]
  congr 1
  have hs : 0 < Real.sqrt q := Real.sqrt_pos.mpr hq
  rw [mul_inv_eq_iff_eq_mul₀ hs.ne']
  exact (Real.mul_self_sqrt hq.le).symm

/-- An `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- At the exact values, a sum of an `[a, b]` array along its second axis, read at `p`, is the sum over `d` of the
    entries `(p, d)`. -/
theorem multiReduction_add_row_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction (F := Ideal) .add [1] ⟨1, ![a]⟩ src acc h hφ hacc (ix1 p) = ∑ d : Fin b, src (ix2 p d) := by
  refine (Ideal.multiReduction_add_single src acc h hφ hacc (ix1 p)).trans ?_
  exact Finset.sum_congr rfl fun d _ => congrArg src (by
    funext ax
    match ax with
    | ⟨0, _⟩ => rfl
    | ⟨1, _⟩ => rfl)

/-! ## The accumulator updates -/

/-- The update by a product of a weight array and a value array, both real-valued. -/
theorem pay1_apply_of (v20 : FVec Ideal S10000x64 .f32) (v28 : FVec Ideal S64x10000 .f32) (v35 : Vec Ideal S64x64 .f32)
    (Q : Fin 10000 → Fin 64 → ℝ) (O : Fin 64 → Fin 10000 → ℝ) (P : Fin 64 → Fin 64 → ℝ)
    (h20 : ∀ r j, v20 (ix2 r j) = ((Q r j : ℝ) : EReal)) (h28 : ∀ k r, v28 (ix2 k r) = ((O k r : ℝ) : EReal))
    (hP : ∀ k j, v35 (ix2 k j) = ((P k j : ℝ) : EReal)) (k j : Fin 64) :
    k0_pay1 (F := Ideal) v20 v28 v35 (ix2 k j) = ((P k j + ∑ r : Fin 10000, O k r * Q r j : ℝ) : EReal) := by
  unfold k0_pay1
  simp only [shapeCast_self, addf_apply, matmul, dotB_eq]
  rw [plain_apply_zero, hP]
  simp only [h20, h28, ← EReal.coe_mul, coe_sum, ← EReal.coe_add]

theorem pay1_apply (x1 : Vec Ideal S10000x64 .bf16) (x0 : Vec Ideal S1x1x10000 .i32) (x4 : Vec Ideal S1x64 .f32)
    (x2 x3 : Vec Ideal S64x64 .bf16) (Eb : Fin 10000 → Fin 64 → ℝ) (C : Fin 64 → Fin 64 → ℝ)
    (hx1 : ∀ r d, x1 (ix2 r d) = ((Eb r d : ℝ) : EReal))
    (hx2 : ∀ d j, x2 (ix2 d j) = (((-2) * C j d : ℝ) : EReal))
    (hx3 : ∀ d j, x3 (ix2 d j) = ((1 : ℝ) : EReal))
    (hx4 : ∀ j, x4 (ix2 (0 : Fin 1) j) = ((∑ d, C j d * C j d : ℝ) : EReal))
    (v35 : Vec Ideal S64x64 .f32) (P : Fin 64 → Fin 64 → ℝ) (hP : ∀ k j, v35 (ix2 k j) = ((P k j : ℝ) : EReal))
    (k j : Fin 64) :
    k0_pay1 (F := Ideal) (k0_pay14 x1 x4 x2 x3) (k0_pay15 x0) v35 (ix2 k j)
      = ((P k j + ∑ r : Fin 10000, Cert.LossData.ohw (x0 (ix3 (0 : Fin 1) (0 : Fin 1) r)) k * Cert.LossData.sq Eb C r j : ℝ) : EReal) :=
  pay1_apply_of _ _ v35 (Cert.LossData.sq Eb C) (fun k r => Cert.LossData.ohw (x0 (ix3 (0 : Fin 1) (0 : Fin 1) r)) k) P
    (pay14_apply x1 x4 x2 x3 Eb C hx1 hx2 hx3 hx4) (fun k r => pay15_apply x0 k r) hP k j

theorem pay16_apply (x1 : Vec Ideal S10000x64 .bf16) (x0 : Vec Ideal S1x1x10000 .i32) (x4 : Vec Ideal S1x64 .f32)
    (x2 x3 : Vec Ideal S64x64 .bf16) (Eb : Fin 10000 → Fin 64 → ℝ) (C : Fin 64 → Fin 64 → ℝ)
    (hx1 : ∀ r d, x1 (ix2 r d) = ((Eb r d : ℝ) : EReal))
    (hx2 : ∀ d j, x2 (ix2 d j) = (((-2) * C j d : ℝ) : EReal))
    (hx3 : ∀ d j, x3 (ix2 d j) = ((1 : ℝ) : EReal))
    (hx4 : ∀ j, x4 (ix2 (0 : Fin 1) j) = ((∑ d, C j d * C j d : ℝ) : EReal))
    (v29 : Vec Ideal S64x64 .f32) (P : Fin 64 → Fin 64 → ℝ) (hP : ∀ k j, v29 (ix2 k j) = ((P k j : ℝ) : EReal))
    (k j : Fin 64) :
    k0_pay16 (F := Ideal) x1 x0 x4 x2 x3 v29 (ix2 k j)
      = ((P k j + ∑ r : Fin 10000, Cert.LossData.ohw (x0 (ix3 (0 : Fin 1) (0 : Fin 1) r)) k * Cert.LossData.dist Eb C r j : ℝ) : EReal) := by
  unfold k0_pay16
  simp only [shapeCast_self, addf_apply, matmul, dotB_eq]
  rw [plain_apply_zero, hP]
  have hterm : ∀ r : Fin 10000,
      k0_pay15 (F := Ideal) x0 (ix2 k r) * mulf (k0_pay14 (F := Ideal) x1 x4 x2 x3) (rsqrt (k0_pay14 (F := Ideal) x1 x4 x2 x3)) (ix2 r j)
        = ((Cert.LossData.ohw (x0 (ix3 (0 : Fin 1) (0 : Fin 1) r)) k * Cert.LossData.dist Eb C r j : ℝ) : EReal) := fun r => by
    rw [pay15_apply, mulf_apply, rsqrt_apply, pay14_apply x1 x4 x2 x3 Eb C hx1 hx2 hx3 hx4,
      mul_rsqrt_coe (Cert.LossData.sq_pos Eb C r j), ← EReal.coe_mul]
    rfl
  simp only [hterm, coe_sum, ← EReal.coe_add]

theorem pay2_apply (x0 : Vec Ideal S1x1x10000 .i32) (v41 : Vec Ideal S64x1 .f32) (W : Fin 64 → ℝ)
    (hW : ∀ k, v41 (ix2 k (0 : Fin 1)) = ((W k : ℝ) : EReal)) (k : Fin 64) :
    k0_pay2 (F := Ideal) (k0_pay15 x0) v41 (ix2 k (0 : Fin 1))
      = ((W k + ∑ r : Fin 10000, Cert.LossData.ohw (x0 (ix3 (0 : Fin 1) (0 : Fin 1) r)) k : ℝ) : EReal) := by
  unfold k0_pay2
  simp only [shapeCast_self, addf_apply]
  rw [shapeCast_a_a1_apply, hW]
  have hsum := multiReduction_add_row_apply (k0_pay15 (F := Ideal) x0) 0x00000000#32 reduces_S64x10000_S64 (.inl rfl) rfl k
  refine (congrArg (fun t => ((W k : ℝ) : EReal) + t) hsum).trans ?_
  simp only [pay15_apply, coe_sum, ← EReal.coe_add]

end Cert.KernelIdeal.KerBlock

end
-- ==== Proof.KerFinish.lean ====
/-
  The last grid point's arithmetic: from the three per-cluster accumulators — the counts w, M1 = ∑ oh · s and
  M2 = ∑ oh · q against every centroid — to the scalar loss.

  Each intermediate vector is read at an index as a coerced real: the identity matrix, the counts as a vector, the
  diagonal of M2 (a row sum of M2 ∘ eye), the attraction (diagonal / max (w, 1)), the repulsion
  (((6400 w − 20 Σ M1 + Σ M2) − (100 w − 20 Σ M1 ∘ eye + Σ M2 ∘ eye)) / max (63 w, 1)), the validity bit (w > 0) and
  its float. The total is (Σ_valid attraction + Σ_valid repulsion) / #valid; the last division is kept as the
  extended reals' division of two coerced reals, the number of valid clusters being possibly zero. The inner
  divisors are at least one, so those quotients are the reals'.
-/
import proofs.«117046_g74603581931673_cont_9to1_m_1323_25_alg».proof.Proof.Gen.KernelIdeal.Skeleton
import proofs.«117046_g74603581931673_cont_9to1_m_1323_25_alg».proof.Proof.LossData
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.KernelIdeal.KerFinish

open Idealize.ShloMosaic Idealize.ShloMosaic.ValueIdx Cert.KernelIdeal Cert.KernelIdeal.Gen Cert.LossSpec
open scoped BigOperators

/-! ## Sums and quotients of coerced reals -/

/-- A finite sum of reals, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The quotient of two coerced reals by a divisor that is not zero is the coerced real quotient. -/
theorem div_coe_coe (a y : ℝ) (hy : y ≠ 0) : Ideal.div (a : EReal) (y : EReal) = ((a / y : ℝ) : EReal) := by
  rw [Ideal.div_coe hy, ← EReal.coe_mul, mul_one_div]

/-! ## The literal words -/

theorem ofBits_6400 : Ideal.ofBits .f32 0x45C80000#32 = ((6400 : ℝ) : EReal) := by
  simp [Ideal.ofBits, Ideal.ieee, -EReal.coe_mul]; norm_num
theorem ofBits_20 : Ideal.ofBits .f32 0x41A00000#32 = ((20 : ℝ) : EReal) := by
  simp [Ideal.ofBits, Ideal.ieee, -EReal.coe_mul]; norm_num
theorem ofBits_100 : Ideal.ofBits .f32 0x42C80000#32 = ((100 : ℝ) : EReal) := by
  simp [Ideal.ofBits, Ideal.ieee, -EReal.coe_mul]; norm_num
theorem ofBits_63 : Ideal.ofBits .f32 0x427C0000#32 = ((63 : ℝ) : EReal) := by
  simp [Ideal.ofBits, Ideal.ieee, -EReal.coe_mul]; norm_num
theorem ofBits_1 : Ideal.ofBits .f32 0x3F800000#32 = ((1 : ℝ) : EReal) := by
  rw [Ideal.ofBits_one_f32]; norm_cast
theorem ofBits_0 : Ideal.ofBits .f32 0x00000000#32 = ((0 : ℝ) : EReal) := by
  rw [Ideal.ofBits_zero_f32]; norm_cast

/-! ## Layout and reduction readings at an index -/

section Readings
variable {α : Type}

/-- An `[a, 1]` array cast to `[a]` reads, at `i`, the operand at `(i, 0)`: row `i` of a one-column array sits at
    row-major position `i · 1 + 0 = i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Over the result index `p` of a sum along the second axis of an `[a, b]` array, the source index with `d` on the
    summed axis is `(p, d)`. -/
theorem lift_axis1_ix2 {a b : ℕ} (h : (⟨2, ![a, b]⟩ : Shape).Reduces [1] ⟨1, ![a]⟩) (p : Fin a) (d : Fin b) :
    h.lift (ix1 p) d = ix2 p d := by
  funext ax
  match ax with
  | ⟨0, _⟩ => rfl
  | ⟨1, _⟩ => rfl

/-- At the exact values, an add-reduction of an `[a, b]` array along its second axis, read at `p`, is the sum over `d`
    of the entries `(p, d)`. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ d : Fin b, src (ix2 p d) := by
  refine (Ideal.multiReduction_add_single src acc h hφ hacc (ix1 p)).trans ?_
  exact Finset.sum_congr rfl fun d _ => congrArg src (lift_axis1_ix2 h p d)

/-- An integer comparison at an index compares the elements. -/
theorem cmpi_apply {s : Shape} {w : ℕ} (p : CmpIPredicate) (x y : IVec s w) (i : s.Idx) :
    cmpi p x y i = IntOp.cmpi p (x i) (y i) := rfl

end Readings

/-! ## The identity matrix -/

/-- Two coordinates below 64 are equal exactly when their 32-bit words are. -/
theorem ofNat_eq_iff (k j : Fin 64) : BitVec.ofNat 32 k.val = BitVec.ofNat 32 j.val ↔ k = j := by
  constructor
  · intro h
    have h2 := congrArg BitVec.toNat h
    simp only [BitVec.toNat_ofNat] at h2
    have := k.isLt; have := j.isLt
    exact Fin.ext (by omega)
  · rintro rfl; rfl

/-- The float of the widened equality bit of two coordinates is the identity matrix's entry. -/
theorem eyeBit (k j : Fin 64) :
    (((((IntOp.cmpi .eq (BitVec.ofNat 32 k.val) (BitVec.ofNat 32 j.val)).setWidth 32).toInt : ℝ)) : EReal)
      = ((eye k j : ℝ) : EReal) := by
  unfold eye IntOp.cmpi
  by_cases h : k = j
  · subst h
    simp
  · have hne : ¬ BitVec.ofNat 32 k.val = BitVec.ofNat 32 j.val := fun e => h ((ofNat_eq_iff k j).mp e)
    have hb : (BitVec.ofNat 32 k.val == BitVec.ofNat 32 j.val) = false := by simpa using hne
    simp [h, hb]

/-- The identity matrix the kernel builds from two iotas, read at `(k, j)`. -/
theorem eye_apply (k j : Fin 64) : k0_pay4 (F := Ideal) (ix2 k j) = ((eye k j : ℝ) : EReal) := by
  unfold k0_pay4
  simp only [sitofp_apply, extui_apply, cmpi_apply]
  rw [iota_single_apply, iota_single_apply]
  exact eyeBit k j

/-! ## The per-cluster vectors -/

/-- The coercion of the reals into the extended reals commutes with `max`. -/
theorem coe_max (a b : ℝ) : ((max a b : ℝ) : EReal) = max (a : EReal) (b : EReal) :=
  EReal.coe_strictMono.monotone.map_max

/-- A divisor `max y 1` is not zero. -/
theorem max_one_ne_zero (y : ℝ) : max y 1 ≠ 0 := (lt_of_lt_of_le one_pos (le_max_right y 1)).ne'

/-- The counts column read as a vector. -/
theorem counts_apply (v58 : Vec Ideal S64x1 .f32) (w : Fin 64 → ℝ)
    (h58 : ∀ k, v58 (ix2 k (0 : Fin 1)) = ((w k : ℝ) : EReal)) (k : Fin 64) :
    k0_pay5 (F := Ideal) v58 (ix1 k) = ((w k : ℝ) : EReal) := by
  unfold k0_pay5
  exact (shapeCast_a1_a_apply v58 _ k).trans (h58 k)

/-- A row sum of a matrix of coerced reals is the coerced row sum. -/
theorem rowSum_coe (v : FVec Ideal S64x64 .f32) (M : Fin 64 → Fin 64 → ℝ)
    (hv : ∀ k j, v (ix2 k j) = ((M k j : ℝ) : EReal))
    (h : S64x64.Reduces [1] S64) (hφ : FKind.Formats .f32) (hacc : (0x00000000#32 : BitVec 32) = 0x00000000#32)
    (k : Fin 64) :
    multiReduction (F := Ideal) .add [1] S64 v 0x00000000#32 h hφ hacc (ix1 k) = ((∑ j, M k j : ℝ) : EReal) := by
  refine (rowSum_apply v _ h hφ hacc k).trans ?_
  simp only [hv]
  exact coe_sum _ _

/-- The product of a matrix of coerced reals with the identity matrix, at `(k, j)`. -/
theorem mulEye_apply (v : FVec Ideal S64x64 .f32) (M : Fin 64 → Fin 64 → ℝ)
    (hv : ∀ k j, v (ix2 k j) = ((M k j : ℝ) : EReal)) (k j : Fin 64) :
    mulf v (k0_pay4 (F := Ideal)) (ix2 k j) = ((M k j * eye k j : ℝ) : EReal) := by
  rw [mulf_apply, hv, eye_apply, ← EReal.coe_mul]

/-- The diagonal of the second accumulator, as the row sum of its product with the identity matrix. -/
theorem diag_apply (v57 : Vec Ideal S64x64 .f32) (M2 : Fin 64 → Fin 64 → ℝ)
    (h57 : ∀ k j, v57 (ix2 k j) = ((M2 k j : ℝ) : EReal)) (k : Fin 64) :
    k0_pay6 (F := Ideal) v57 (ix1 k) = ((∑ j, M2 k j * eye k j : ℝ) : EReal) := by
  unfold k0_pay6
  exact rowSum_coe _ (fun k j => M2 k j * eye k j) (mulEye_apply v57 M2 h57) _ _ _ k

/-- The attraction of cluster `k`. -/
theorem attr_apply (v57 : Vec Ideal S64x64 .f32) (v58 : Vec Ideal S64x1 .f32) (M2 : Fin 64 → Fin 64 → ℝ) (w : Fin 64 → ℝ)
    (h57 : ∀ k j, v57 (ix2 k j) = ((M2 k j : ℝ) : EReal)) (h58 : ∀ k, v58 (ix2 k (0 : Fin 1)) = ((w k : ℝ) : EReal))
    (k : Fin 64) :
    k0_pay7 (F := Ideal) v57 v58 (ix1 k) = (((∑ j, M2 k j * eye k j) / max (w k) 1 : ℝ) : EReal) := by
  unfold k0_pay7
  simp only [divf_apply, maximumf_apply, broadcast_apply, Ideal.ofBits_def]
  rw [diag_apply v57 M2 h57 k, counts_apply v58 w h58 k, ofBits_1, ← coe_max, div_coe_coe _ _ (max_one_ne_zero _)]

/-- The repulsion of cluster `k`. -/
theorem rep_apply (v56 v57 : Vec Ideal S64x64 .f32) (v58 : Vec Ideal S64x1 .f32) (M1 M2 : Fin 64 → Fin 64 → ℝ) (w : Fin 64 → ℝ)
    (h56 : ∀ k j, v56 (ix2 k j) = ((M1 k j : ℝ) : EReal)) (h57 : ∀ k j, v57 (ix2 k j) = ((M2 k j : ℝ) : EReal))
    (h58 : ∀ k, v58 (ix2 k (0 : Fin 1)) = ((w k : ℝ) : EReal)) (k : Fin 64) :
    k0_pay8 (F := Ideal) v56 v57 v58 (ix1 k)
      = ((((((6400 * w k - 20 * ∑ j, M1 k j) + ∑ j, M2 k j)
          - ((100 * w k - 20 * ∑ j, M1 k j * eye k j) + ∑ j, M2 k j * eye k j)) / max (w k * 63) 1 : ℝ)) : EReal) := by
  unfold k0_pay8
  simp only [divf_apply, maximumf_apply, subf_apply, addf_apply, mulf_apply, broadcast_apply, Ideal.ofBits_def]
  rw [rowSum_coe v56 M1 h56 _ _ _ k, rowSum_coe v57 M2 h57 _ _ _ k,
    rowSum_coe _ (fun k j => M1 k j * eye k j) (mulEye_apply v56 M1 h56) _ _ _ k,
    diag_apply v57 M2 h57 k, counts_apply v58 w h58 k,
    ofBits_6400, ofBits_20, ofBits_100, ofBits_63, ofBits_1]
  simp only [← EReal.coe_mul, ← EReal.coe_sub, ← EReal.coe_add, ← coe_max]
  exact div_coe_coe _ _ (max_one_ne_zero _)

/-- The validity bit of cluster `k`: its count is positive. -/
theorem valid_apply (v58 : Vec Ideal S64x1 .f32) (w : Fin 64 → ℝ)
    (h58 : ∀ k, v58 (ix2 k (0 : Fin 1)) = ((w k : ℝ) : EReal)) (k : Fin 64) :
    k0_pay9 (F := Ideal) v58 (ix1 k) = BitVec.ofBool (decide (0 < w k)) := by
  unfold k0_pay9
  simp only [cmpf_apply, broadcast_apply, Ideal.ofBits_def]
  rw [counts_apply v58 w h58 k, ofBits_0, Ideal.cmpf_def]
  show BitVec.ofBool (decide (((0 : ℝ) : EReal) < ((w k : ℝ) : EReal))) = _
  simp only [EReal.coe_lt_coe_iff]

/-- The validity of cluster `k` as a float: one or zero. -/
theorem validF_apply (v58 : Vec Ideal S64x1 .f32) (w : Fin 64 → ℝ)
    (h58 : ∀ k, v58 (ix2 k (0 : Fin 1)) = ((w k : ℝ) : EReal)) (k : Fin 64) :
    k0_pay10 (F := Ideal) v58 (ix2 (0 : Fin 1) k) = (((if 0 < w k then 1 else 0 : ℝ)) : EReal) := by
  unfold k0_pay10
  rw [shapeCast_a_1a_apply]
  simp only [sitofp_apply, extui_apply]
  rw [valid_apply v58 w h58 k]
  show ((((BitVec.ofBool (decide (0 < w k))).setWidth 32).toInt : ℝ) : EReal) = _
  by_cases h : 0 < w k
  · rw [if_pos h, decide_eq_true h]; simp
  · rw [if_neg h, decide_eq_false h]; simp

/-- A vector of coerced reals kept at the valid clusters, zero elsewhere. -/
theorem selectValid_apply (v58 : Vec Ideal S64x1 .f32) (w : Fin 64 → ℝ)
    (h58 : ∀ k, v58 (ix2 k (0 : Fin 1)) = ((w k : ℝ) : EReal))
    (x : FVec Ideal S64 .f32) (a : Fin 64 → ℝ) (hx : ∀ k, x (ix1 k) = ((a k : ℝ) : EReal)) (k : Fin 64) :
    select (k0_pay9 (F := Ideal) v58) x (broadcast S64 (Scalar.ofBits (F := Ideal) .f32 0x00000000#32)) (ix1 k)
      = (((if 0 < w k then a k else 0 : ℝ)) : EReal) := by
  rw [select_apply, valid_apply v58 w h58 k, broadcast_apply, hx, Ideal.ofBits_def, ofBits_0]
  by_cases h : 0 < w k
  · rw [if_pos h, decide_eq_true h]; exact select_one _ _
  · rw [if_neg h, decide_eq_false h]; exact select_zero _ _

/-! ## The total -/

/-- The sum of the lanes of a `[1, 64]` vector, taken out as a scalar: the add-reduction along the lanes, the result
    `[1]` viewed `[1, 1]`, and its one element. -/
theorem laneTotal_apply (y : FVec Ideal S1x64 .f32) (hr : S1x64.Reduces [1] S1) (hφ : FKind.Formats .f32)
    (hacc : (0x00000000#32 : BitVec 32) = 0x00000000#32) (hc : S1.ShapeCasts S1x1)
    (hp : ∀ a, (![0, 0] : Fin 2 → Nat) a < S1x1.size a) :
    extractAt ![0, 0] (shapeCast S1x1 (multiReduction (F := Ideal) .add [1] S1 y 0x00000000#32 hr hφ hacc) hc) hp
      = ∑ k : Fin 64, y (ix2 (0 : Fin 1) k) := by
  unfold extractAt
  have hi : (fun a => (⟨(![0, 0] : Fin 2 → Nat) a, hp a⟩ : Fin (S1x1.size a))) = ix2 (0 : Fin 1) (0 : Fin 1) := by
    funext a
    match a with
    | ⟨0, _⟩ => rfl
    | ⟨1, _⟩ => rfl
  rw [hi, shapeCast_a_1a_apply]
  exact rowSum_apply y _ hr hφ hacc (0 : Fin 1)

/-- A real kept on a condition, read as an extended real. -/
theorem sum_ite_coe (w : Fin 64 → ℝ) (a : Fin 64 → ℝ) :
    ∑ k : Fin 64, (((if 0 < w k then a k else 0 : ℝ)) : EReal) = ((∑ k, (if 0 < w k then a k else 0) : ℝ) : EReal) :=
  coe_sum _ _

/-- THE FINISH: from the three accumulators to the loss, the last division kept as the extended reals' division. -/
theorem finish_value (v56 v57 : Vec Ideal S64x64 .f32) (v58 : Vec Ideal S64x1 .f32)
    (M1 M2 : Fin 64 → Fin 64 → ℝ) (w : Fin 64 → ℝ)
    (h56 : ∀ k j, v56 (ix2 k j) = ((M1 k j : ℝ) : EReal)) (h57 : ∀ k j, v57 (ix2 k j) = ((M2 k j : ℝ) : EReal))
    (h58 : ∀ k, v58 (ix2 k (0 : Fin 1)) = ((w k : ℝ) : EReal)) :
    k0_pay3 (F := Ideal) (k0_pay7 v57 v58) (k0_pay8 v56 v57 v58) (k0_pay9 v58) (k0_pay10 v58) (ix2 (0 : Fin 1) (0 : Fin 1))
      = Ideal.div ((Cert.LossSpec.finishNum w M1 M2 : ℝ) : EReal) ((Cert.LossSpec.validCount w : ℝ) : EReal) := by
  unfold k0_pay3
  rw [broadcast_apply, Ideal.scalar_divf_def, Ideal.scalar_addf_def, laneTotal_apply, laneTotal_apply, laneTotal_apply]
  simp only [shapeCast_a_1a_apply]
  simp only [selectValid_apply v58 w h58 _ _ (attr_apply v57 v58 M2 w h57 h58),
    selectValid_apply v58 w h58 _ _ (rep_apply v56 v57 v58 M1 M2 w h56 h57 h58),
    validF_apply v58 w h58]
  rw [sum_ite_coe, sum_ite_coe, coe_sum, ← EReal.coe_add]
  rfl

end Cert.KernelIdeal.KerFinish

end
-- ==== Proof.KerValue.lean ====
/-
  The idealized kernel's value on real data: the loss.

  The points are cut into ten blocks of 10000.  At grid point `t` the kernel adds, to each of its three
  per-cluster accumulators, the block's contribution: `∑ᵣ oh(10000 t + r, k) · x(10000 t + r, j)` with `x` the
  distance, the clamped squared distance, or one.  So after point `n` an accumulator holds the sum over the first
  `10000 (n + 1)` points (by induction on the point), after the last point the sum over all of them, and the stored
  loss is the finishing formula of these three sums — which is the loss as the per-point arrangement states it.
-/
import proofs.«117046_g74603581931673_cont_9to1_m_1323_25_alg».proof.Proof.KerChain
import proofs.«117046_g74603581931673_cont_9to1_m_1323_25_alg».proof.Proof.KerHost
import proofs.«117046_g74603581931673_cont_9to1_m_1323_25_alg».proof.Proof.KerAccum
import proofs.«117046_g74603581931673_cont_9to1_m_1323_25_alg».proof.Proof.KerFinish

set_option maxRecDepth 16384

noncomputable section

open Idealize.ShloMosaic Idealize.ShloMosaic.TcCoe Idealize.SL.Sem Idealize.ShloMosaic.ValueIdx

namespace Cert.KernelIdeal.KerValue

open Cert.KernelIdeal Cert.KernelIdeal.Gen Cert.LossSpec Cert.LossData
open Cert.KernelIdeal.KerPieces Cert.KernelIdeal.KerChain Cert.KernelIdeal.KerHost Cert.KernelIdeal.KerBlock

variable (m : (ℓ : Loc nD τ sig) → Buf (Elt Ideal) ℓ) (c : Dev nD)
variable (E : Fin 100000 → Fin 64 → ℝ) (C : Fin 64 → Fin 64 → ℝ)

/-- The label words, point by point. -/
def lab : Fin 100000 → BitVec 32 := fun n => lblA m c (ix1 n)

/-- A function of the points, continued by zero to every natural number. -/
def ext (g : Fin 100000 → ℝ) (i : ℕ) : ℝ := if h : i < 100000 then g ⟨i, h⟩ else 0

theorem ext_point (g : Fin 100000 → ℝ) (t : Fin cfg0.N) (r : Fin 10000) :
    ext g (t.val * 10000 + r.val) = g ⟨t.val * 10000 + r.val, point_lt t r⟩ := dif_pos (point_lt t r)

/-- The sum over the first `n + 1` blocks of points. -/
def part (g : Fin 100000 → ℝ) (n : ℕ) : ℝ := ∑ i ∈ Finset.range ((n + 1) * 10000), ext g i

theorem part_zero (g : Fin 100000 → ℝ) : part g 0 = ∑ r : Fin 10000, ext g (0 * 10000 + r.val) := by
  unfold part; rw [Nat.zero_add]; exact sum_range_first_block (ext g)

theorem part_succ (g : Fin 100000 → ℝ) (n : ℕ) :
    part g (n + 1) = part g n + ∑ r : Fin 10000, ext g ((n + 1) * 10000 + r.val) :=
  sum_range_succ_block (ext g) (n + 1)

theorem part_last (g : Fin 100000 → ℝ) : part g 9 = ∑ n : Fin 100000, g n := by
  unfold part
  rw [show (9 + 1) * 10000 = 100000 from rfl, sum_range_all]
  exact Finset.sum_congr rfl fun n _ => dif_pos n.isLt

/-- The three per-point terms that are summed. -/
def g0 (k j : Fin 64) : Fin 100000 → ℝ := fun n => ohw (lab m c n) k * dist E C n j
def g1 (k j : Fin 64) : Fin 100000 → ℝ := fun n => ohw (lab m c n) k * sq E C n j
def g2 (k : Fin 64) : Fin 100000 → ℝ := fun n => ohw (lab m c n) k

/-- The rows of the embeddings that point `t`'s block holds. -/
def Eb (t : Fin cfg0.N) : Fin 10000 → Fin 64 → ℝ := fun r d => E ⟨t.val * 10000 + r.val, point_lt t r⟩ d

section blocks
variable (hE : ∀ n d, embA m c (ix2 n d) = ((E n d : ℝ) : EReal)) (hC : ∀ j d, cenA m c (ix2 j d) = ((C j d : ℝ) : EReal))
include hE hC

theorem hx1 (t : Fin cfg0.N) (r : Fin 10000) (d : Fin 64) :
    (iblk m c 1 t : Vec Ideal S10000x64 .bf16) (ix2 r d) = ((Eb E t r d : ℝ) : EReal) := by
  rw [blk1_apply, hE]; rfl

theorem hx2 (t : Fin cfg0.N) (d j : Fin 64) :
    (iblk m c 2 t : Vec Ideal S64x64 .bf16) (ix2 d j) = (((-2) * C j d : ℝ) : EReal) := by
  rw [blk2_apply, hC, ← EReal.coe_mul]

theorem hx3 (t : Fin cfg0.N) (d j : Fin 64) :
    (iblk m c 3 t : Vec Ideal S64x64 .bf16) (ix2 d j) = ((1 : ℝ) : EReal) := blk3_apply m c t d j

theorem hx4 (t : Fin cfg0.N) (j : Fin 64) :
    (iblk m c 4 t : Vec Ideal S1x64 .f32) (ix2 (0 : Fin 1) j) = ((∑ d, C j d * C j d : ℝ) : EReal) := by
  rw [blk4_apply, zero_add]
  simp only [hC, ← EReal.coe_mul]
  exact coe_sum Finset.univ _

/-- One point's update of the distance accumulator. -/
theorem step0 (t : Fin cfg0.N) (p0 : Vec Ideal S64x64 .f32) (P : Fin 64 → Fin 64 → ℝ)
    (hP : ∀ k j, p0 (ix2 k j) = ((P k j : ℝ) : EReal)) (k j : Fin 64) :
    upd0 (iblk m c 0 t) (iblk m c 1 t) (iblk m c 2 t) (iblk m c 3 t) (iblk m c 4 t) p0 (ix2 k j)
      = ((P k j + ∑ r : Fin 10000, ext (g0 m c E C k j) (t.val * 10000 + r.val) : ℝ) : EReal) := by
  refine (pay16_apply (iblk m c 1 t) (iblk m c 0 t) (iblk m c 4 t) (iblk m c 2 t) (iblk m c 3 t) (Eb E t) C
    (hx1 m c E C hE hC t) (hx2 m c E C hE hC t) (hx3 m c E C hE hC t) (hx4 m c E C hE hC t) p0 P hP k j).trans ?_
  refine congrArg (fun x : ℝ => ((P k j + x : ℝ) : EReal)) (Finset.sum_congr rfl fun r _ => ?_)
  rw [ext_point, blk0_apply]; rfl

/-- One point's update of the squared-distance accumulator. -/
theorem step1 (t : Fin cfg0.N) (p1 : Vec Ideal S64x64 .f32) (P : Fin 64 → Fin 64 → ℝ)
    (hP : ∀ k j, p1 (ix2 k j) = ((P k j : ℝ) : EReal)) (k j : Fin 64) :
    upd1 (iblk m c 0 t) (iblk m c 1 t) (iblk m c 2 t) (iblk m c 3 t) (iblk m c 4 t) p1 (ix2 k j)
      = ((P k j + ∑ r : Fin 10000, ext (g1 m c E C k j) (t.val * 10000 + r.val) : ℝ) : EReal) := by
  refine (pay1_apply (iblk m c 1 t) (iblk m c 0 t) (iblk m c 4 t) (iblk m c 2 t) (iblk m c 3 t) (Eb E t) C
    (hx1 m c E C hE hC t) (hx2 m c E C hE hC t) (hx3 m c E C hE hC t) (hx4 m c E C hE hC t) p1 P hP k j).trans ?_
  refine congrArg (fun x : ℝ => ((P k j + x : ℝ) : EReal)) (Finset.sum_congr rfl fun r _ => ?_)
  rw [ext_point, blk0_apply]; rfl

omit hE hC in
/-- One point's update of the count accumulator. -/
theorem step2 (t : Fin cfg0.N) (p2 : Vec Ideal S64x1 .f32) (W : Fin 64 → ℝ)
    (hW : ∀ k, p2 (ix2 k (0 : Fin 1)) = ((W k : ℝ) : EReal)) (k : Fin 64) :
    upd2 (iblk m c 0 t) (iblk m c 1 t) (iblk m c 2 t) (iblk m c 3 t) (iblk m c 4 t) p2 (ix2 k (0 : Fin 1))
      = ((W k + ∑ r : Fin 10000, ext (g2 m c k) (t.val * 10000 + r.val) : ℝ) : EReal) := by
  refine (pay2_apply (iblk m c 0 t) p2 W hW k).trans ?_
  refine congrArg (fun x : ℝ => ((W k + x : ℝ) : EReal)) (Finset.sum_congr rfl fun r _ => ?_)
  rw [ext_point, blk0_apply]; rfl

/-- After point `n` each accumulator holds its sum over the first `n + 1` blocks. -/
theorem acc_eq : ∀ (n : ℕ) (h : n < cfg0.N),
    (∀ k j, (outsAt0 m c n h).2.1 (ix2 k j) = ((part (g0 m c E C k j) n : ℝ) : EReal))
    ∧ (∀ k j, (outsAt0 m c n h).2.2.1 (ix2 k j) = ((part (g1 m c E C k j) n : ℝ) : EReal))
    ∧ (∀ k, (outsAt0 m c n h).2.2.2 (ix2 k (0 : Fin 1)) = ((part (g2 m c k) n : ℝ) : EReal))
  | 0, h => by
    have e := scr_zero m c h
    have e0 : (outsAt0 m c 0 h).2.1 = upd0 (iblk m c 0 ⟨0, h⟩) (iblk m c 1 ⟨0, h⟩) (iblk m c 2 ⟨0, h⟩) (iblk m c 3 ⟨0, h⟩) (iblk m c 4 ⟨0, h⟩) (k0_pay11 (F := Ideal)) := congrArg Prod.fst e
    have e1 : (outsAt0 m c 0 h).2.2.1 = upd1 (iblk m c 0 ⟨0, h⟩) (iblk m c 1 ⟨0, h⟩) (iblk m c 2 ⟨0, h⟩) (iblk m c 3 ⟨0, h⟩) (iblk m c 4 ⟨0, h⟩) (k0_pay12 (F := Ideal)) := congrArg (fun x => x.2.1) e
    have e2 : (outsAt0 m c 0 h).2.2.2 = upd2 (iblk m c 0 ⟨0, h⟩) (iblk m c 1 ⟨0, h⟩) (iblk m c 2 ⟨0, h⟩) (iblk m c 3 ⟨0, h⟩) (iblk m c 4 ⟨0, h⟩) (k0_pay13 (F := Ideal)) := congrArg (fun x => x.2.2) e
    refine ⟨fun k j => ?_, fun k j => ?_, fun k => ?_⟩
    · rw [e0, step0 m c E C hE hC ⟨0, h⟩ (k0_pay11 (F := Ideal)) (fun _ _ => 0) (fun k j => pay11_apply k j) k j, part_zero, zero_add]
    · rw [e1, step1 m c E C hE hC ⟨0, h⟩ (k0_pay12 (F := Ideal)) (fun _ _ => 0) (fun k j => pay12_apply k j) k j, part_zero, zero_add]
    · rw [e2, step2 m c ⟨0, h⟩ (k0_pay13 (F := Ideal)) (fun _ => 0) (fun k => pay13_apply k) k, part_zero, zero_add]
  | n + 1, h => by
    obtain ⟨i0, i1, i2⟩ := acc_eq n (Nat.lt_of_succ_lt h)
    have e := scr_succ m c n h
    have e0 : (outsAt0 m c (n + 1) h).2.1 = upd0 (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.1 := congrArg Prod.fst e
    have e1 : (outsAt0 m c (n + 1) h).2.2.1 = upd1 (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.2.1 := congrArg (fun x => x.2.1) e
    have e2 : (outsAt0 m c (n + 1) h).2.2.2 = upd2 (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).2.2.2 := congrArg (fun x => x.2.2) e
    refine ⟨fun k j => ?_, fun k j => ?_, fun k => ?_⟩
    · rw [e0, step0 m c E C hE hC ⟨n + 1, h⟩ _ (fun k j => part (g0 m c E C k j) n) i0 k j, part_succ]
    · rw [e1, step1 m c E C hE hC ⟨n + 1, h⟩ _ (fun k j => part (g1 m c E C k j) n) i1 k j, part_succ]
    · rw [e2, step2 m c ⟨n + 1, h⟩ _ (fun k => part (g2 m c k) n) i2 k, part_succ]

/-- What the last point stores: the loss. -/
theorem last_value (h : 9 < cfg0.N) :
    (outsAt0 m c 9 h).1 (ix2 (0 : Fin 1) (0 : Fin 1)) = loss (lab m c) E C := by
  obtain ⟨i0, i1, i2⟩ := acc_eq m c E C hE hC 9 h
  rw [out_last m c h]
  refine (Cert.KernelIdeal.KerFinish.finish_value _ _ _ (accum (ohOf (lab m c)) (dist E C)) (accum (ohOf (lab m c)) (sq E C))
    (count (ohOf (lab m c))) (fun k j => ?_) (fun k j => ?_) (fun k => ?_)).trans ?_
  · rw [i0, part_last]; rfl
  · rw [i1, part_last]; rfl
  · rw [i2, part_last]; rfl
  · unfold loss
    rw [finishNum_eq_numRef (ohOf (lab m c)) (dist E C) (sq E C) (dist_mul_self E C)]

end blocks

end Cert.KernelIdeal.KerValue

end
-- ==== Proof.RefRun.lean ====
/-
  The reference program's run, read back.

  The reference computes the loss on the host in 82 straight-line operations (the bodies of its three called
  functions — the one-hot encoding, the rectifier and the two selects — stand inline at their call sites).
  `ops` lists them in program order; `run` says that every weakly fair execution terminates with the result
  buffer at the operations' composed term `res_main_v51` of the three argument arrays, and the arguments
  unchanged.  The validity mask `counts > 0` is a float comparison whose operands are computed from the integer
  labels alone and whose result is a bit, so the float instance of that comparison is named explicitly in the term.
-/
import proofs.«117046_g74603581931673_cont_9to1_m_1323_25_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 82 operations, in order (a called function's operations stand in its call's place, spelt `TRef.…`). -/
abbrev ops : List (HloOp τ sig (Elt F)) :=
  [ binary main_arg0 main_arg0 main_v0 (mulf : (⟨S100000x64, .f32⟩ : BufTy).Contents (Elt F) → (⟨S100000x64, .f32⟩ : BufTy).Contents (Elt F) → (⟨S100000x64, .f32⟩ : BufTy).Contents (Elt F)),
    nullary main_cst (constant S_ .f32 0x00000000#32),
    binary main_v0 main_cst main_v1 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v1 main_v2 (broadcastInDim S100000x1 ![0] bcast_S100000_S100000x1_0 : (⟨S100000, .f32⟩ : BufTy).Contents (Elt F) → (⟨S100000x1, .f32⟩ : BufTy).Contents (Elt F)),
    binary main_arg2 main_arg2 main_v3 (mulf : (⟨S64x64, .f32⟩ : BufTy).Contents (Elt F) → (⟨S64x64, .f32⟩ : BufTy).Contents (Elt F) → (⟨S64x64, .f32⟩ : BufTy).Contents (Elt F)),
    nullary main_cst_0 (constant S_ .f32 0x00000000#32),
    binary main_v3 main_cst_0 main_v4 ((fun x v => Host.reduceAdd x v reducesTo_S64x64_S64_d1 h_S_) : (⟨S64x64, .f32⟩ : BufTy).Contents (Elt F) → (⟨S_, .f32⟩ : BufTy).Contents (Elt F) → (⟨S64, .f32⟩ : BufTy).Contents (Elt F)),
    unary main_v4 main_v5 (broadcastInDim S1x64 ![1] bcast_S64_S1x64_1 : (⟨S64, .f32⟩ : BufTy).Contents (Elt F) → (⟨S1x64, .f32⟩ : BufTy).Contents (Elt F)),
    unary main_v2 main_v6 (broadcastInDim S100000x64 ![0, 1] bcast_S100000x1_S100000x64_0_1 : (⟨S100000x1, .f32⟩ : BufTy).Contents (Elt F) → (⟨S100000x64, .f32⟩ : BufTy).Contents (Elt F)),
    unary main_v5 main_v7 (broadcastInDim S100000x64 ![0, 1] bcast_S1x64_S100000x64_0_1 : (⟨S1x64, .f32⟩ : BufTy).Contents (Elt F) → (⟨S100000x64, .f32⟩ : BufTy).Contents (Elt F)),
    binary main_v6 main_v7 main_v8 (addf : (⟨S100000x64, .f32⟩ : BufTy).Contents (Elt F) → (⟨S100000x64, .f32⟩ : BufTy).Contents (Elt F) → (⟨S100000x64, .f32⟩ : BufTy).Contents (Elt F)),
    unary main_arg2 main_v9 ((transpose S64x64 [1, 0] · transposes_S64x64_S64x64_1_0) : (⟨S64x64, .f32⟩ : BufTy).Contents (Elt F) → (⟨S64x64, .f32⟩ : BufTy).Contents (Elt F)),
    binary main_arg0 main_v9 main_v10 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_1 (constant S_ .f32 0x40000000#32),
    unary main_cst_1 main_v11 (broadcastInDim S100000x64 ![] bcast_S_S100000x64 : (⟨S_, .f32⟩ : BufTy).Contents (Elt F) → (⟨S100000x64, .f32⟩ : BufTy).Contents (Elt F)),
    binary main_v11 main_v10 main_v12 (mulf : (⟨S100000x64, .f32⟩ : BufTy).Contents (Elt F) → (⟨S100000x64, .f32⟩ : BufTy).Contents (Elt F) → (⟨S100000x64, .f32⟩ : BufTy).Contents (Elt F)),
    binary main_v8 main_v12 main_v13 (subf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x2B8CBCCC#32),
    unary main_cst_2 main_v14 (broadcastInDim S100000x64 ![] bcast_S_S100000x64 : (⟨S_, .f32⟩ : BufTy).Contents (Elt F) → (⟨S100000x64, .f32⟩ : BufTy).Contents (Elt F)),
    binary main_v13 main_v14 main_v15 (maximumf : (⟨S100000x64, .f32⟩ : BufTy).Contents (Elt F) → (⟨S100000x64, .f32⟩ : BufTy).Contents (Elt F) → (⟨S100000x64, .f32⟩ : BufTy).Contents (Elt F)),
    unary main_v15 main_v16 (Host.sqrt : (⟨S100000x64, .f32⟩ : BufTy).Contents (Elt F) → (⟨S100000x64, .f32⟩ : BufTy).Contents (Elt F)),
    TRef.unary (TRef.of (T := ⟨S100000, .i32⟩) main_arg1) (TRef.of (T := ⟨S100000x1, .i32⟩) main_call0_v0) (broadcastInDim S100000x1 ![0] bcast_S100000_S100000x1_0),
    TRef.nullary (TRef.of (T := ⟨S1x64, .i32⟩) main_call0_v1) (iotaInDim S1x64 32 1),
    TRef.unary (TRef.of (T := ⟨S100000x1, .i32⟩) main_call0_v0) (TRef.of (T := ⟨S100000x64, .i32⟩) main_call0_v2) (broadcastInDim S100000x64 ![0, 1] bcast_S100000x1_S100000x64_0_1),
    TRef.unary (TRef.of (T := ⟨S1x64, .i32⟩) main_call0_v1) (TRef.of (T := ⟨S100000x64, .i32⟩) main_call0_v3) (broadcastInDim S100000x64 ![0, 1] bcast_S1x64_S100000x64_0_1),
    TRef.binary (TRef.of (T := ⟨S100000x64, .i32⟩) main_call0_v2) (TRef.of (T := ⟨S100000x64, .i32⟩) main_call0_v3) (TRef.of (T := ⟨S100000x64, .i1⟩) main_call0_v4) (cmpi .eq),
    TRef.unary (TRef.of (T := ⟨S100000x64, .i1⟩) main_call0_v4) (TRef.of (T := ⟨S100000x64, .f32⟩) main_v17) (uitofp .f32),
    nullary main_cst_3 (constant S_ .f32 0x00000000#32),
    binary main_v17 main_cst_3 main_v18 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    binary main_v16 main_v16 main_v19 (mulf : (⟨S100000x64, .f32⟩ : BufTy).Contents (Elt F) → (⟨S100000x64, .f32⟩ : BufTy).Contents (Elt F) → (⟨S100000x64, .f32⟩ : BufTy).Contents (Elt F)),
    binary main_v17 main_v19 main_v20 (mulf : (⟨S100000x64, .f32⟩ : BufTy).Contents (Elt F) → (⟨S100000x64, .f32⟩ : BufTy).Contents (Elt F) → (⟨S100000x64, .f32⟩ : BufTy).Contents (Elt F)),
    nullary main_cst_4 (constant S_ .f32 0x00000000#32),
    binary main_v20 main_cst_4 main_v21 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_5 (constant S_ .f32 0x3F800000#32),
    unary main_cst_5 main_v22 (broadcastInDim S64 ![] bcast_S_S64 : (⟨S_, .f32⟩ : BufTy).Contents (Elt F) → (⟨S64, .f32⟩ : BufTy).Contents (Elt F)),
    binary main_v18 main_v22 main_v23 (maximumf : (⟨S64, .f32⟩ : BufTy).Contents (Elt F) → (⟨S64, .f32⟩ : BufTy).Contents (Elt F) → (⟨S64, .f32⟩ : BufTy).Contents (Elt F)),
    binary main_v21 main_v23 main_v24 (Host.divf : (⟨S64, .f32⟩ : BufTy).Contents (Elt F) → (⟨S64, .f32⟩ : BufTy).Contents (Elt F) → (⟨S64, .f32⟩ : BufTy).Contents (Elt F)),
    nullary main_cst_6 (constant S_ .f32 0x41200000#32),
    unary main_cst_6 main_v25 (broadcastInDim S100000x64 ![] bcast_S_S100000x64 : (⟨S_, .f32⟩ : BufTy).Contents (Elt F) → (⟨S100000x64, .f32⟩ : BufTy).Contents (Elt F)),
    binary main_v25 main_v16 main_v26 (subf : (⟨S100000x64, .f32⟩ : BufTy).Contents (Elt F) → (⟨S100000x64, .f32⟩ : BufTy).Contents (Elt F) → (⟨S100000x64, .f32⟩ : BufTy).Contents (Elt F)),
    binary main_v26 main_v26 main_v27 (mulf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v27) (TRef.of (T := ⟨S100000x64, .f32⟩) main_call1_v0) (TRef.of (T := ⟨S100000x64, .f32⟩) main_v28) maximumf,
    nullary main_cst_7 (constant S_ .f32 0x00000000#32),
    binary main_v28 main_cst_7 main_v29 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v29 main_v30 (broadcastInDim S100000x1 ![0] bcast_S100000_S100000x1_0 : (⟨S100000, .f32⟩ : BufTy).Contents (Elt F) → (⟨S100000x1, .f32⟩ : BufTy).Contents (Elt F)),
    unary main_v30 main_v31 (broadcastInDim S100000x64 ![0, 1] bcast_S100000x1_S100000x64_0_1 : (⟨S100000x1, .f32⟩ : BufTy).Contents (Elt F) → (⟨S100000x64, .f32⟩ : BufTy).Contents (Elt F)),
    binary main_v17 main_v31 main_v32 (mulf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x00000000#32),
    binary main_v32 main_cst_8 main_v33 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    binary main_v17 main_v28 main_v34 (mulf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x00000000#32),
    binary main_v34 main_cst_9 main_v35 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    binary main_v33 main_v35 main_v36 (subf : (⟨S64, .f32⟩ : BufTy).Contents (Elt F) → (⟨S64, .f32⟩ : BufTy).Contents (Elt F) → (⟨S64, .f32⟩ : BufTy).Contents (Elt F)),
    nullary main_cst_10 (constant S_ .f32 0x427C0000#32),
    unary main_cst_10 main_v37 (broadcastInDim S64 ![] bcast_S_S64 : (⟨S_, .f32⟩ : BufTy).Contents (Elt F) → (⟨S64, .f32⟩ : BufTy).Contents (Elt F)),
    binary main_v18 main_v37 main_v38 (mulf : (⟨S64, .f32⟩ : BufTy).Contents (Elt F) → (⟨S64, .f32⟩ : BufTy).Contents (Elt F) → (⟨S64, .f32⟩ : BufTy).Contents (Elt F)),
    nullary main_cst_11 (constant S_ .f32 0x3F800000#32),
    unary main_cst_11 main_v39 (broadcastInDim S64 ![] bcast_S_S64 : (⟨S_, .f32⟩ : BufTy).Contents (Elt F) → (⟨S64, .f32⟩ : BufTy).Contents (Elt F)),
    binary main_v38 main_v39 main_v40 (maximumf : (⟨S64, .f32⟩ : BufTy).Contents (Elt F) → (⟨S64, .f32⟩ : BufTy).Contents (Elt F) → (⟨S64, .f32⟩ : BufTy).Contents (Elt F)),
    binary main_v36 main_v40 main_v41 (Host.divf : (⟨S64, .f32⟩ : BufTy).Contents (Elt F) → (⟨S64, .f32⟩ : BufTy).Contents (Elt F) → (⟨S64, .f32⟩ : BufTy).Contents (Elt F)),
    nullary main_cst_12 (constant S_ .f32 0x00000000#32),
    unary main_cst_12 main_v42 (broadcastInDim S64 ![] bcast_S_S64 : (⟨S_, .f32⟩ : BufTy).Contents (Elt F) → (⟨S64, .f32⟩ : BufTy).Contents (Elt F)),
    binary main_v18 main_v42 main_v43 (cmpf .ogt : (⟨S64, .f32⟩ : BufTy).Contents (Elt F) → (⟨S64, .f32⟩ : BufTy).Contents (Elt F) → (⟨S64, .i1⟩ : BufTy).Contents (Elt F)),
    nullary main_cst_13 (constant S_ .f32 0x00000000#32),
    TRef.unary (TRef.of (T := ⟨S_, .f32⟩) main_cst_13) (TRef.of (T := ⟨S_, .f32⟩) main_call2_v0) id,
    TRef.unary (TRef.of (T := ⟨S_, .f32⟩) main_call2_v0) (TRef.of (T := ⟨S64, .f32⟩) main_call2_v1) (broadcastInDim S64 ![] bcast_S_S64),
    TRef.ternary (TRef.of (T := ⟨S64, .i1⟩) main_v43) (TRef.of (T := ⟨S64, .f32⟩) main_v24) (TRef.of (T := ⟨S64, .f32⟩) main_call2_v1) (TRef.of (T := ⟨S64, .f32⟩) main_v44) select,
    nullary main_cst_14 (constant S_ .f32 0x00000000#32),
    binary main_v44 main_cst_14 main_v45 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_15 (constant S_ .f32 0x00000000#32),
    TRef.unary (TRef.of (T := ⟨S_, .f32⟩) main_cst_15) (TRef.of (T := ⟨S_, .f32⟩) main_call3_v0) id,
    TRef.unary (TRef.of (T := ⟨S_, .f32⟩) main_call3_v0) (TRef.of (T := ⟨S64, .f32⟩) main_call3_v1) (broadcastInDim S64 ![] bcast_S_S64),
    TRef.ternary (TRef.of (T := ⟨S64, .i1⟩) main_v43) (TRef.of (T := ⟨S64, .f32⟩) main_v41) (TRef.of (T := ⟨S64, .f32⟩) main_call3_v1) (TRef.of (T := ⟨S64, .f32⟩) main_v46) select,
    nullary main_cst_16 (constant S_ .f32 0x00000000#32),
    binary main_v46 main_cst_16 main_v47 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    unary main_v43 main_v48 (uitofp .f32 : (⟨S64, .i1⟩ : BufTy).Contents (Elt F) → (⟨S64, .f32⟩ : BufTy).Contents (Elt F)),
    nullary main_cst_17 (constant S_ .f32 0x00000000#32),
    binary main_v48 main_cst_17 main_v49 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    binary main_v45 main_v47 main_v50 (addf : (⟨S_, .f32⟩ : BufTy).Contents (Elt F) → (⟨S_, .f32⟩ : BufTy).Contents (Elt F) → (⟨S_, .f32⟩ : BufTy).Contents (Elt F)),
    binary main_v50 main_v49 main_v51 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., nullary_bufs_sub .., unary_bufs_sub .., unary_bufs_sub .., binary_bufs_sub .., unary_bufs_sub .., nullary_bufs_sub .., binary_bufs_sub .., binary_bufs_sub .., binary_bufs_sub .., nullary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., binary_bufs_sub .., unary_bufs_sub .., unary_bufs_sub .., binary_bufs_sub .., nullary_bufs_sub .., binary_bufs_sub .., binary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., unary_bufs_sub .., ternary_bufs_sub .., nullary_bufs_sub .., binary_bufs_sub .., unary_bufs_sub .., nullary_bufs_sub .., binary_bufs_sub .., binary_bufs_sub .., binary_bufs_sub ..⟩

set_option maxRecDepth 8192 in
/-- `main_v51`'s composed term of the arguments (named: it is long). -/
def res_main_v51 (m : (ℓ : Loc nD τ sig) → Buf (Elt F) ℓ) (c : Dev nD) : Buf (Elt F) ((c.tc : Thread nD τ).loc main_v51) :=
  Host.divf (addf (Host.reduceAdd (select (cmpf (F := F) .ogt (Host.reduceAdd (uitofp .f32 (cmpi .eq (broadcastInDim S100000x64 ![0, 1] bcast_S100000x1_S100000x64_0_1 (broadcastInDim S100000x1 ![0] bcast_S100000_S100000x1_0 (m ((c.tc : Thread nD τ).loc main_arg1)))) (broadcastInDim S100000x64 ![0, 1] bcast_S1x64_S100000x64_0_1 (iotaInDim S1x64 32 1)))) (constant S_ .f32 0x00000000#32) reducesTo_S100000x64_S64_d0 h_S_) (broadcastInDim S64 ![] bcast_S_S64 (constant S_ .f32 0x00000000#32))) (Host.divf (Host.reduceAdd (mulf (uitofp .f32 (cmpi .eq (broadcastInDim S100000x64 ![0, 1] bcast_S100000x1_S100000x64_0_1 (broadcastInDim S100000x1 ![0] bcast_S100000_S100000x1_0 (m ((c.tc : Thread nD τ).loc main_arg1)))) (broadcastInDim S100000x64 ![0, 1] bcast_S1x64_S100000x64_0_1 (iotaInDim S1x64 32 1)))) (mulf (Host.sqrt (maximumf (subf (addf (broadcastInDim S100000x64 ![0, 1] bcast_S100000x1_S100000x64_0_1 (broadcastInDim S100000x1 ![0] bcast_S100000_S100000x1_0 (Host.reduceAdd (mulf (m ((c.tc : Thread nD τ).loc main_arg0)) (m ((c.tc : Thread nD τ).loc main_arg0))) (constant S_ .f32 0x00000000#32) reducesTo_S100000x64_S100000_d1 h_S_))) (broadcastInDim S100000x64 ![0, 1] bcast_S1x64_S100000x64_0_1 (broadcastInDim S1x64 ![1] bcast_S64_S1x64_1 (Host.reduceAdd (mulf (m ((c.tc : Thread nD τ).loc main_arg2)) (m ((c.tc : Thread nD τ).loc main_arg2))) (constant S_ .f32 0x00000000#32) reducesTo_S64x64_S64_d1 h_S_)))) (mulf (broadcastInDim S100000x64 ![] bcast_S_S100000x64 (constant S_ .f32 0x40000000#32)) (Host.dotGeneral dot_S100000x64_S64x64_S100000x64_1_0_0_1_n_n none (m ((c.tc : Thread nD τ).loc main_arg0)) (transpose S64x64 [1, 0] (m ((c.tc : Thread nD τ).loc main_arg2)) transposes_S64x64_S64x64_1_0)))) (broadcastInDim S100000x64 ![] bcast_S_S100000x64 (constant S_ .f32 0x2B8CBCCC#32)))) (Host.sqrt (maximumf (subf (addf (broadcastInDim S100000x64 ![0, 1] bcast_S100000x1_S100000x64_0_1 (broadcastInDim S100000x1 ![0] bcast_S100000_S100000x1_0 (Host.reduceAdd (mulf (m ((c.tc : Thread nD τ).loc main_arg0)) (m ((c.tc : Thread nD τ).loc main_arg0))) (constant S_ .f32 0x00000000#32) reducesTo_S100000x64_S100000_d1 h_S_))) (broadcastInDim S100000x64 ![0, 1] bcast_S1x64_S100000x64_0_1 (broadcastInDim S1x64 ![1] bcast_S64_S1x64_1 (Host.reduceAdd (mulf (m ((c.tc : Thread nD τ).loc main_arg2)) (m ((c.tc : Thread nD τ).loc main_arg2))) (constant S_ .f32 0x00000000#32) reducesTo_S64x64_S64_d1 h_S_)))) (mulf (broadcastInDim S100000x64 ![] bcast_S_S100000x64 (constant S_ .f32 0x40000000#32)) (Host.dotGeneral dot_S100000x64_S64x64_S100000x64_1_0_0_1_n_n none (m ((c.tc : Thread nD τ).loc main_arg0)) (transpose S64x64 [1, 0] (m ((c.tc : Thread nD τ).loc main_arg2)) transposes_S64x64_S64x64_1_0)))) (broadcastInDim S100000x64 ![] bcast_S_S100000x64 (constant S_ .f32 0x2B8CBCCC#32)))))) (constant S_ .f32 0x00000000#32) reducesTo_S100000x64_S64_d0 h_S_) (maximumf (Host.reduceAdd (uitofp .f32 (cmpi .eq (broadcastInDim S100000x64 ![0, 1] bcast_S100000x1_S100000x64_0_1 (broadcastInDim S100000x1 ![0] bcast_S100000_S100000x1_0 (m ((c.tc : Thread nD τ).loc main_arg1)))) (broadcastInDim S100000x64 ![0, 1] bcast_S1x64_S100000x64_0_1 (iotaInDim S1x64 32 1)))) (constant S_ .f32 0x00000000#32) reducesTo_S100000x64_S64_d0 h_S_) (broadcastInDim S64 ![] bcast_S_S64 (constant S_ .f32 0x3F800000#32)))) (broadcastInDim S64 ![] bcast_S_S64 (id (constant S_ .f32 0x00000000#32)))) (constant S_ .f32 0x00000000#32) reducesTo_S64_S_d0 h_S_) (Host.reduceAdd (select (cmpf (F := F) .ogt (Host.reduceAdd (uitofp .f32 (cmpi .eq (broadcastInDim S100000x64 ![0, 1] bcast_S100000x1_S100000x64_0_1 (broadcastInDim S100000x1 ![0] bcast_S100000_S100000x1_0 (m ((c.tc : Thread nD τ).loc main_arg1)))) (broadcastInDim S100000x64 ![0, 1] bcast_S1x64_S100000x64_0_1 (iotaInDim S1x64 32 1)))) (constant S_ .f32 0x00000000#32) reducesTo_S100000x64_S64_d0 h_S_) (broadcastInDim S64 ![] bcast_S_S64 (constant S_ .f32 0x00000000#32))) (Host.divf (subf (Host.reduceAdd (mulf (uitofp .f32 (cmpi .eq (broadcastInDim S100000x64 ![0, 1] bcast_S100000x1_S100000x64_0_1 (broadcastInDim S100000x1 ![0] bcast_S100000_S100000x1_0 (m ((c.tc : Thread nD τ).loc main_arg1)))) (broadcastInDim S100000x64 ![0, 1] bcast_S1x64_S100000x64_0_1 (iotaInDim S1x64 32 1)))) (broadcastInDim S100000x64 ![0, 1] bcast_S100000x1_S100000x64_0_1 (broadcastInDim S100000x1 ![0] bcast_S100000_S100000x1_0 (Host.reduceAdd (maximumf (mulf (subf (broadcastInDim S100000x64 ![] bcast_S_S100000x64 (constant S_ .f32 0x41200000#32)) (Host.sqrt (maximumf (subf (addf (broadcastInDim S100000x64 ![0, 1] bcast_S100000x1_S100000x64_0_1 (broadcastInDim S100000x1 ![0] bcast_S100000_S100000x1_0 (Host.reduceAdd (mulf (m ((c.tc : Thread nD τ).loc main_arg0)) (m ((c.tc : Thread nD τ).loc main_arg0))) (constant S_ .f32 0x00000000#32) reducesTo_S100000x64_S100000_d1 h_S_))) (broadcastInDim S100000x64 ![0, 1] bcast_S1x64_S100000x64_0_1 (broadcastInDim S1x64 ![1] bcast_S64_S1x64_1 (Host.reduceAdd (mulf (m ((c.tc : Thread nD τ).loc main_arg2)) (m ((c.tc : Thread nD τ).loc main_arg2))) (constant S_ .f32 0x00000000#32) reducesTo_S64x64_S64_d1 h_S_)))) (mulf (broadcastInDim S100000x64 ![] bcast_S_S100000x64 (constant S_ .f32 0x40000000#32)) (Host.dotGeneral dot_S100000x64_S64x64_S100000x64_1_0_0_1_n_n none (m ((c.tc : Thread nD τ).loc main_arg0)) (transpose S64x64 [1, 0] (m ((c.tc : Thread nD τ).loc main_arg2)) transposes_S64x64_S64x64_1_0)))) (broadcastInDim S100000x64 ![] bcast_S_S100000x64 (constant S_ .f32 0x2B8CBCCC#32))))) (subf (broadcastInDim S100000x64 ![] bcast_S_S100000x64 (constant S_ .f32 0x41200000#32)) (Host.sqrt (maximumf (subf (addf (broadcastInDim S100000x64 ![0, 1] bcast_S100000x1_S100000x64_0_1 (broadcastInDim S100000x1 ![0] bcast_S100000_S100000x1_0 (Host.reduceAdd (mulf (m ((c.tc : Thread nD τ).loc main_arg0)) (m ((c.tc : Thread nD τ).loc main_arg0))) (constant S_ .f32 0x00000000#32) reducesTo_S100000x64_S100000_d1 h_S_))) (broadcastInDim S100000x64 ![0, 1] bcast_S1x64_S100000x64_0_1 (broadcastInDim S1x64 ![1] bcast_S64_S1x64_1 (Host.reduceAdd (mulf (m ((c.tc : Thread nD τ).loc main_arg2)) (m ((c.tc : Thread nD τ).loc main_arg2))) (constant S_ .f32 0x00000000#32) reducesTo_S64x64_S64_d1 h_S_)))) (mulf (broadcastInDim S100000x64 ![] bcast_S_S100000x64 (constant S_ .f32 0x40000000#32)) (Host.dotGeneral dot_S100000x64_S64x64_S100000x64_1_0_0_1_n_n none (m ((c.tc : Thread nD τ).loc main_arg0)) (transpose S64x64 [1, 0] (m ((c.tc : Thread nD τ).loc main_arg2)) transposes_S64x64_S64x64_1_0)))) (broadcastInDim S100000x64 ![] bcast_S_S100000x64 (constant S_ .f32 0x2B8CBCCC#32)))))) (broadcastInDim S100000x64 ![] bcast_S_S100000x64 (constant S_ .f32 0x00000000#32))) (constant S_ .f32 0x00000000#32) reducesTo_S100000x64_S100000_d1 h_S_)))) (constant S_ .f32 0x00000000#32) reducesTo_S100000x64_S64_d0 h_S_) (Host.reduceAdd (mulf (uitofp .f32 (cmpi .eq (broadcastInDim S100000x64 ![0, 1] bcast_S100000x1_S100000x64_0_1 (broadcastInDim S100000x1 ![0] bcast_S100000_S100000x1_0 (m ((c.tc : Thread nD τ).loc main_arg1)))) (broadcastInDim S100000x64 ![0, 1] bcast_S1x64_S100000x64_0_1 (iotaInDim S1x64 32 1)))) (maximumf (mulf (subf (broadcastInDim S100000x64 ![] bcast_S_S100000x64 (constant S_ .f32 0x41200000#32)) (Host.sqrt (maximumf (subf (addf (broadcastInDim S100000x64 ![0, 1] bcast_S100000x1_S100000x64_0_1 (broadcastInDim S100000x1 ![0] bcast_S100000_S100000x1_0 (Host.reduceAdd (mulf (m ((c.tc : Thread nD τ).loc main_arg0)) (m ((c.tc : Thread nD τ).loc main_arg0))) (constant S_ .f32 0x00000000#32) reducesTo_S100000x64_S100000_d1 h_S_))) (broadcastInDim S100000x64 ![0, 1] bcast_S1x64_S100000x64_0_1 (broadcastInDim S1x64 ![1] bcast_S64_S1x64_1 (Host.reduceAdd (mulf (m ((c.tc : Thread nD τ).loc main_arg2)) (m ((c.tc : Thread nD τ).loc main_arg2))) (constant S_ .f32 0x00000000#32) reducesTo_S64x64_S64_d1 h_S_)))) (mulf (broadcastInDim S100000x64 ![] bcast_S_S100000x64 (constant S_ .f32 0x40000000#32)) (Host.dotGeneral dot_S100000x64_S64x64_S100000x64_1_0_0_1_n_n none (m ((c.tc : Thread nD τ).loc main_arg0)) (transpose S64x64 [1, 0] (m ((c.tc : Thread nD τ).loc main_arg2)) transposes_S64x64_S64x64_1_0)))) (broadcastInDim S100000x64 ![] bcast_S_S100000x64 (constant S_ .f32 0x2B8CBCCC#32))))) (subf (broadcastInDim S100000x64 ![] bcast_S_S100000x64 (constant S_ .f32 0x41200000#32)) (Host.sqrt (maximumf (subf (addf (broadcastInDim S100000x64 ![0, 1] bcast_S100000x1_S100000x64_0_1 (broadcastInDim S100000x1 ![0] bcast_S100000_S100000x1_0 (Host.reduceAdd (mulf (m ((c.tc : Thread nD τ).loc main_arg0)) (m ((c.tc : Thread nD τ).loc main_arg0))) (constant S_ .f32 0x00000000#32) reducesTo_S100000x64_S100000_d1 h_S_))) (broadcastInDim S100000x64 ![0, 1] bcast_S1x64_S100000x64_0_1 (broadcastInDim S1x64 ![1] bcast_S64_S1x64_1 (Host.reduceAdd (mulf (m ((c.tc : Thread nD τ).loc main_arg2)) (m ((c.tc : Thread nD τ).loc main_arg2))) (constant S_ .f32 0x00000000#32) reducesTo_S64x64_S64_d1 h_S_)))) (mulf (broadcastInDim S100000x64 ![] bcast_S_S100000x64 (constant S_ .f32 0x40000000#32)) (Host.dotGeneral dot_S100000x64_S64x64_S100000x64_1_0_0_1_n_n none (m ((c.tc : Thread nD τ).loc main_arg0)) (transpose S64x64 [1, 0] (m ((c.tc : Thread nD τ).loc main_arg2)) transposes_S64x64_S64x64_1_0)))) (broadcastInDim S100000x64 ![] bcast_S_S100000x64 (constant S_ .f32 0x2B8CBCCC#32)))))) (broadcastInDim S100000x64 ![] bcast_S_S100000x64 (constant S_ .f32 0x00000000#32)))) (constant S_ .f32 0x00000000#32) reducesTo_S100000x64_S64_d0 h_S_)) (maximumf (mulf (Host.reduceAdd (uitofp .f32 (cmpi .eq (broadcastInDim S100000x64 ![0, 1] bcast_S100000x1_S100000x64_0_1 (broadcastInDim S100000x1 ![0] bcast_S100000_S100000x1_0 (m ((c.tc : Thread nD τ).loc main_arg1)))) (broadcastInDim S100000x64 ![0, 1] bcast_S1x64_S100000x64_0_1 (iotaInDim S1x64 32 1)))) (constant S_ .f32 0x00000000#32) reducesTo_S100000x64_S64_d0 h_S_) (broadcastInDim S64 ![] bcast_S_S64 (constant S_ .f32 0x427C0000#32))) (broadcastInDim S64 ![] bcast_S_S64 (constant S_ .f32 0x3F800000#32)))) (broadcastInDim S64 ![] bcast_S_S64 (id (constant S_ .f32 0x00000000#32)))) (constant S_ .f32 0x00000000#32) reducesTo_S64_S_d0 h_S_)) (Host.reduceAdd (uitofp .f32 (cmpf (F := F) .ogt (Host.reduceAdd (uitofp .f32 (cmpi .eq (broadcastInDim S100000x64 ![0, 1] bcast_S100000x1_S100000x64_0_1 (broadcastInDim S100000x1 ![0] bcast_S100000_S100000x1_0 (m ((c.tc : Thread nD τ).loc main_arg1)))) (broadcastInDim S100000x64 ![0, 1] bcast_S1x64_S100000x64_0_1 (iotaInDim S1x64 32 1)))) (constant S_ .f32 0x00000000#32) reducesTo_S100000x64_S64_d0 h_S_) (broadcastInDim S64 ![] bcast_S_S64 (constant S_ .f32 0x00000000#32)))) (constant S_ .f32 0x00000000#32) reducesTo_S64_S_d0 h_S_)

/-- `res_main_v51` by its position among the values @main returns, 0 counting from 0: the name for hand proofs to cite, since
    a re-print renumbers `main_v51`. An abbreviation: it unfolds to the `res_main_v51` that `run` states. -/
abbrev res_out0 (m : (ℓ : Loc nD τ sig) → Buf (Elt F) ℓ) (c : Dev nD) : Buf (Elt F) ((c.tc : Thread nD τ).loc main_v51) := res_main_v51 m c

set_option maxRecDepth 8192 in
set_option maxHeartbeats 32800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = res_main_v51 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v51).trans (by after_results_simp <;> rfl <;> (unfold res_main_v51; rfl)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's value on real data.

  The reference's result is one composed term of its three argument arrays.  That term is cut here into named
  stages over plain arrays `x0` (the embeddings, 100000 × 64), `x1` (the label words, 100000) and `x2` (the
  centroids, 64 × 64); the cut is definitional.  Each stage is then read at an index, for embeddings
  and centroids whose entries are reals `E n d`, `C j d`:

    per point    ∑_d E²,   per centroid ∑_d C²,   the inner products ∑_d E·C,
    the clamped squared distance  max (∑E² + ∑C² − 2 ∑E·C) ε  and its root, the distance;
    the one-hot weight of point n in cluster k: 1 when the label word of n is the word k, else 0;
    the cluster sizes ∑_n oh;   the hinge max ((10 − dist)²) 0 and its total over the centroids;
    per cluster ∑_n oh·dist², ∑_n oh·∑_j hinge and ∑_n oh·hinge;
    the two quotients by max (size) 1 and max (size · 63) 1 (divisors that are at least 1, so the quotient of
    extended reals is the quotient of reals), kept where the cluster is not empty and 0 elsewhere;
    the three sums over the 64 clusters and the last quotient, which is left as the quotient of the two
    extended reals (its divisor may be zero).

  A finite sum of reals read as extended reals is the real sum read as an extended real; the coercion commutes
  with +, −, ·, max; the root of a non-negative real is the real root.  `res_eq_loss` is the conclusion.
-/
import proofs.«117046_g74603581931673_cont_9to1_m_1323_25_alg».proof.Proof.RefRun
import proofs.«117046_g74603581931673_cont_9to1_m_1323_25_alg».proof.Proof.LossData
import Idealize.ShloMosaic.Lib.IdealHost
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.LossSpec Cert.LossData
open scoped BigOperators

/-! ## Layout operations read at an index -/

/-- A column vector spread over the 64 columns reads its row's entry. -/
theorem bcastCol_apply {α : Type} (y : S100000.Idx → α) (n : Fin 100000) (j : Fin 64) :
    broadcastInDim S100000x64 ![0, 1] bcast_S100000x1_S100000x64_0_1
      (broadcastInDim S100000x1 ![0] bcast_S100000_S100000x1_0 y) (ix2 n j) = y (ix1 n) := by
  rw [broadcastInDim_apply _ bcast_S100000x1_S100000x64_0_1 _ (ix2 n j) (ix2 n (0 : Fin 1)) (fun a => match a with
      | ⟨0, _⟩ => by show n.val = if (100000 : Nat) = 1 then 0 else n.val; rw [if_neg (by decide)]
      | ⟨1, _⟩ => by show 0 = if (1 : Nat) = 1 then 0 else j.val; rw [if_pos rfl])]
  exact broadcastInDim_apply _ bcast_S100000_S100000x1_0 y (ix2 n (0 : Fin 1)) (ix1 n) (fun a => match a with
      | ⟨0, _⟩ => by show n.val = if (100000 : Nat) = 1 then 0 else n.val; rw [if_neg (by decide)])

/-- A row spread over the 100000 rows reads its column's entry. -/
theorem bcastRow_apply {α : Type} (z : S1x64.Idx → α) (n : Fin 100000) (j : Fin 64) :
    broadcastInDim S100000x64 ![0, 1] bcast_S1x64_S100000x64_0_1 z (ix2 n j) = z (ix2 (0 : Fin 1) j) :=
  broadcastInDim_apply _ bcast_S1x64_S100000x64_0_1 z (ix2 n j) (ix2 (0 : Fin 1) j) (fun a => match a with
      | ⟨0, _⟩ => by show 0 = if (1 : Nat) = 1 then 0 else n.val; rw [if_pos rfl]
      | ⟨1, _⟩ => by show j.val = if (64 : Nat) = 1 then 0 else j.val; rw [if_neg (by decide)])

/-- A vector of 64 entries laid out as a row reads the same entry. -/
theorem asRow_apply {α : Type} (y : S64.Idx → α) (j : Fin 64) :
    broadcastInDim S1x64 ![1] bcast_S64_S1x64_1 y (ix2 (0 : Fin 1) j) = y (ix1 j) :=
  broadcastInDim_apply _ bcast_S64_S1x64_1 y (ix2 (0 : Fin 1) j) (ix1 j) (fun a => match a with
      | ⟨0, _⟩ => by show j.val = if (64 : Nat) = 1 then 0 else j.val; rw [if_neg (by decide)])

/-! ## Sums read at an index -/

/-- A finite sum of reals, each read as an extended real, is the real sum read as an extended real. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The sum along a row of a 100000 × 64 array, from zero. -/
theorem rowSum_apply (y : FVec Ideal S100000x64 .f32) (n : Fin 100000) :
    Host.reduceAdd y (constant S_ .f32 0x00000000#32) reducesTo_S100000x64_S100000_d1 h_S_ (ix1 n)
      = ∑ d : Fin 64, y (ix2 n d) := by
  rw [hostReduceAdd_apply, Ideal.hostReduceAdd_single reducesTo_S100000x64_S100000_d1 (by decide),
    constant_apply, Ideal.ofBits_zero_f32, zero_add]
  refine Finset.sum_congr rfl fun k _ => ?_
  exact congrArg y (funext fun a => Fin.ext (by match a with | ⟨0, _⟩ => rfl | ⟨1, _⟩ => rfl))

/-- The sum along a row of a 64 × 64 array, from zero. -/
theorem rowSum64_apply (y : FVec Ideal S64x64 .f32) (j : Fin 64) :
    Host.reduceAdd y (constant S_ .f32 0x00000000#32) reducesTo_S64x64_S64_d1 h_S_ (ix1 j)
      = ∑ d : Fin 64, y (ix2 j d) := by
  rw [hostReduceAdd_apply, Ideal.hostReduceAdd_single reducesTo_S64x64_S64_d1 (by decide),
    constant_apply, Ideal.ofBits_zero_f32, zero_add]
  refine Finset.sum_congr rfl fun k _ => ?_
  exact congrArg y (funext fun a => Fin.ext (by match a with | ⟨0, _⟩ => rfl | ⟨1, _⟩ => rfl))

/-- The sum down a column of a 100000 × 64 array, from zero. -/
theorem colSum_apply (y : FVec Ideal S100000x64 .f32) (k : Fin 64) :
    Host.reduceAdd y (constant S_ .f32 0x00000000#32) reducesTo_S100000x64_S64_d0 h_S_ (ix1 k)
      = ∑ n : Fin 100000, y (ix2 n k) := by
  rw [hostReduceAdd_apply, Ideal.hostReduceAdd_single reducesTo_S100000x64_S64_d0 (by decide),
    constant_apply, Ideal.ofBits_zero_f32, zero_add]
  refine Finset.sum_congr rfl fun n _ => ?_
  exact congrArg y (funext fun a => Fin.ext (by match a with | ⟨0, _⟩ => rfl | ⟨1, _⟩ => rfl))

/-- The sum of all 64 entries of a vector, from zero. -/
theorem totalSum_apply (y : FVec Ideal S64 .f32) (i : S_.Idx) :
    Host.reduceAdd y (constant S_ .f32 0x00000000#32) reducesTo_S64_S_d0 h_S_ i = ∑ k : Fin 64, y (ix1 k) := by
  rw [hostReduceAdd_apply, Ideal.hostReduceAdd_total reducesTo_S64_S_d0 (fun b => b.elim0),
    constant_apply, Ideal.ofBits_zero_f32, zero_add]
  exact Fintype.sum_equiv ⟨fun i => i 0, ix1, fun i => (eq_ix1 i).symm, fun _ => rfl⟩ _ _
    (fun i => congrArg y (eq_ix1 i))

/-! ## The constants -/

/-- The words of 2, 10, 63, 1 and 0. -/
theorem ofBits_two : Ideal.ofBits .f32 0x40000000#32 = ((2 : ℝ) : EReal) := by
  simp [Ideal.ofBits, Ideal.ieee, -EReal.coe_mul]; norm_num
theorem ofBits_ten : Ideal.ofBits .f32 0x41200000#32 = ((10 : ℝ) : EReal) := by
  simp [Ideal.ofBits, Ideal.ieee, -EReal.coe_mul]; norm_num
theorem ofBits_sixtyThree : Ideal.ofBits .f32 0x427C0000#32 = ((63 : ℝ) : EReal) := by
  simp [Ideal.ofBits, Ideal.ieee, -EReal.coe_mul]; norm_num
theorem ofBits_one : Ideal.ofBits .f32 0x3F800000#32 = ((1 : ℝ) : EReal) := by
  rw [Ideal.ofBits_one_f32, EReal.coe_one]
theorem ofBits_zero : Ideal.ofBits .f32 0x00000000#32 = ((0 : ℝ) : EReal) := by
  rw [Ideal.ofBits_zero_f32, EReal.coe_zero]

/-- A scalar constant spread over any shape reads the constant. -/
theorem splat_apply {T : Shape} (h : S_.BroadcastsInDim T ![]) (b : BitVec 32) (j : T.Idx) :
    broadcastInDim T ![] h (constant (F := Ideal) S_ .f32 b) j = Ideal.ofBits .f32 b := by
  rw [broadcastInDim_scalar_apply, constant_apply]

/-! ## The stages -/

/-- The three argument arrays' types. -/
abbrev A0 : Type := FVec Ideal S100000x64 .f32
abbrev A1 : Type := IVec S100000 32
abbrev A2 : Type := FVec Ideal S64x64 .f32

/-- Per point, the sum of the squares of its coordinates. -/
def sqE (x0 : A0) : FVec Ideal S100000 .f32 :=
  Host.reduceAdd (mulf x0 x0) (constant S_ .f32 0x00000000#32) reducesTo_S100000x64_S100000_d1 h_S_
/-- Per centroid, the sum of the squares of its coordinates. -/
def sqC (x2 : A2) : FVec Ideal S64 .f32 :=
  Host.reduceAdd (mulf x2 x2) (constant S_ .f32 0x00000000#32) reducesTo_S64x64_S64_d1 h_S_
/-- The inner products of points and centroids. -/
def dotEC (x0 : A0) (x2 : A2) : FVec Ideal S100000x64 .f32 :=
  Host.dotGeneral dot_S100000x64_S64x64_S100000x64_1_0_0_1_n_n none x0 (transpose S64x64 [1, 0] x2 transposes_S64x64_S64x64_1_0)
/-- The distances. -/
def dst (x0 : A0) (x2 : A2) : FVec Ideal S100000x64 .f32 :=
  Host.sqrt (maximumf (subf (addf (broadcastInDim S100000x64 ![0, 1] bcast_S100000x1_S100000x64_0_1 (broadcastInDim S100000x1 ![0] bcast_S100000_S100000x1_0 (sqE x0))) (broadcastInDim S100000x64 ![0, 1] bcast_S1x64_S100000x64_0_1 (broadcastInDim S1x64 ![1] bcast_S64_S1x64_1 (sqC x2)))) (mulf (broadcastInDim S100000x64 ![] bcast_S_S100000x64 (constant S_ .f32 0x40000000#32)) (dotEC x0 x2))) (broadcastInDim S100000x64 ![] bcast_S_S100000x64 (constant S_ .f32 0x2B8CBCCC#32)))
/-- The one-hot weights. -/
def oh (x1 : A1) : FVec Ideal S100000x64 .f32 :=
  uitofp .f32 (cmpi .eq (broadcastInDim S100000x64 ![0, 1] bcast_S100000x1_S100000x64_0_1 (broadcastInDim S100000x1 ![0] bcast_S100000_S100000x1_0 x1)) (broadcastInDim S100000x64 ![0, 1] bcast_S1x64_S100000x64_0_1 (iotaInDim S1x64 32 1)))
/-- The cluster sizes. -/
def cnt (x1 : A1) : FVec Ideal S64 .f32 :=
  Host.reduceAdd (oh x1) (constant S_ .f32 0x00000000#32) reducesTo_S100000x64_S64_d0 h_S_
/-- Per cluster, the sum over its points of the squared distance to each centroid. -/
def attrNum (x0 : A0) (x1 : A1) (x2 : A2) : FVec Ideal S64 .f32 :=
  Host.reduceAdd (mulf (oh x1) (mulf (dst x0 x2) (dst x0 x2))) (constant S_ .f32 0x00000000#32) reducesTo_S100000x64_S64_d0 h_S_
/-- The hinge. -/
def hg (x0 : A0) (x2 : A2) : FVec Ideal S100000x64 .f32 :=
  maximumf (mulf (subf (broadcastInDim S100000x64 ![] bcast_S_S100000x64 (constant S_ .f32 0x41200000#32)) (dst x0 x2)) (subf (broadcastInDim S100000x64 ![] bcast_S_S100000x64 (constant S_ .f32 0x41200000#32)) (dst x0 x2))) (broadcastInDim S100000x64 ![] bcast_S_S100000x64 (constant S_ .f32 0x00000000#32))
/-- Per point, the hinge summed over the centroids. -/
def hgRow (x0 : A0) (x2 : A2) : FVec Ideal S100000 .f32 :=
  Host.reduceAdd (hg x0 x2) (constant S_ .f32 0x00000000#32) reducesTo_S100000x64_S100000_d1 h_S_
/-- Per cluster, the sum over its points of the row totals of the hinge. -/
def repAll (x0 : A0) (x1 : A1) (x2 : A2) : FVec Ideal S64 .f32 :=
  Host.reduceAdd (mulf (oh x1) (broadcastInDim S100000x64 ![0, 1] bcast_S100000x1_S100000x64_0_1 (broadcastInDim S100000x1 ![0] bcast_S100000_S100000x1_0 (hgRow x0 x2)))) (constant S_ .f32 0x00000000#32) reducesTo_S100000x64_S64_d0 h_S_
/-- Per cluster, the sum over its points of the hinge against each centroid. -/
def repOwn (x0 : A0) (x1 : A1) (x2 : A2) : FVec Ideal S64 .f32 :=
  Host.reduceAdd (mulf (oh x1) (hg x0 x2)) (constant S_ .f32 0x00000000#32) reducesTo_S100000x64_S64_d0 h_S_
/-- Which clusters are non-empty. -/
def valid (x1 : A1) : IVec S64 1 :=
  cmpf (F := Ideal) .ogt (cnt x1) (broadcastInDim S64 ![] bcast_S_S64 (constant S_ .f32 0x00000000#32))
/-- The attraction terms. -/
def attr (x0 : A0) (x1 : A1) (x2 : A2) : FVec Ideal S64 .f32 :=
  select (valid x1) (Host.divf (attrNum x0 x1 x2) (maximumf (cnt x1) (broadcastInDim S64 ![] bcast_S_S64 (constant S_ .f32 0x3F800000#32)))) (broadcastInDim S64 ![] bcast_S_S64 (constant S_ .f32 0x00000000#32))
/-- The repulsion terms. -/
def rep (x0 : A0) (x1 : A1) (x2 : A2) : FVec Ideal S64 .f32 :=
  select (valid x1) (Host.divf (subf (repAll x0 x1 x2) (repOwn x0 x1 x2)) (maximumf (mulf (cnt x1) (broadcastInDim S64 ![] bcast_S_S64 (constant S_ .f32 0x427C0000#32))) (broadcastInDim S64 ![] bcast_S_S64 (constant S_ .f32 0x3F800000#32)))) (broadcastInDim S64 ![] bcast_S_S64 (constant S_ .f32 0x00000000#32))
/-- The whole result. -/
def total (x0 : A0) (x1 : A1) (x2 : A2) : FVec Ideal S_ .f32 :=
  Host.divf (addf (Host.reduceAdd (attr x0 x1 x2) (constant S_ .f32 0x00000000#32) reducesTo_S64_S_d0 h_S_) (Host.reduceAdd (rep x0 x1 x2) (constant S_ .f32 0x00000000#32) reducesTo_S64_S_d0 h_S_)) (Host.reduceAdd (uitofp .f32 (valid x1)) (constant S_ .f32 0x00000000#32) reducesTo_S64_S_d0 h_S_)

set_option maxRecDepth 8192 in
set_option maxHeartbeats 4000000 in
/-- The reference's result is the staged term of its three arguments. -/
theorem res_eq_total (m : (ℓ : Loc nD τ sig) → Buf (Elt Ideal) ℓ) (c : Dev nD) :
    Cert.ReferenceIdeal.RefRun.res_main_v51 (F := Ideal) m c
      = total (m ((c.tc : Thread nD τ).loc main_arg0)) (m ((c.tc : Thread nD τ).loc main_arg1)) (m ((c.tc : Thread nD τ).loc main_arg2)) := rfl

/-! ## The stages read at an index -/

/-- The coercion of the reals into the extended reals commutes with `max`. -/
theorem coe_max (x y : ℝ) : ((max x y : ℝ) : EReal) = max (x : EReal) (y : EReal) :=
  EReal.coe_strictMono.monotone.map_max

/-- The host's square root at an index is the ideal square root of the element. -/
theorem hostSqrt_apply {s : Shape} {φ : FTy} (y : FVec Ideal s φ) (i : s.Idx) : Host.sqrt y i = Ideal.sqrt (y i) := rfl
/-- An unsigned word converted to a float is its value as a natural number. -/
theorem uitofp_apply {s : Shape} {w : Nat} (φ : FTy) (x : IVec s w) (i : s.Idx) :
    (uitofp φ x : FVec Ideal s φ) i = (((x i).toNat : ℝ) : EReal) := rfl
/-- An integer comparison at an index compares the elements. -/
theorem cmpi_apply {s : Shape} {w : Nat} (p : CmpIPredicate) (x y : IVec s w) (i : s.Idx) :
    cmpi p x y i = IntOp.cmpi p (x i) (y i) := rfl

/-- A select on a decided bit is the `if`. -/
theorem select_ofBool {α : Type} (p : Prop) [Decidable p] (a b : α) :
    Scalar.select (BitVec.ofBool (decide p)) a b = if p then a else b := by
  unfold Scalar.select
  by_cases h : p <;> simp [h]

/-- A decided bit read as a number is one or zero. -/
theorem toNat_ofBool_decide (p : Prop) [Decidable p] :
    (((BitVec.ofBool (decide p)).toNat : ℝ) : EReal) = (((if p then 1 else 0 : ℝ)) : EReal) := by
  by_cases h : p <;> simp [h]

section Stages
variable (x0 : A0) (x1 : A1) (x2 : A2) (E : Fin 100000 → Fin 64 → ℝ) (C : Fin 64 → Fin 64 → ℝ)

/-- Per point, the sum of the squares of its coordinates. -/
theorem sqE_apply (hE : ∀ (n : Fin 100000) (d : Fin 64), x0 (ix2 n d) = ((E n d : ℝ) : EReal)) (n : Fin 100000) :
    sqE x0 (ix1 n) = ((∑ d, E n d * E n d : ℝ) : EReal) := by
  unfold sqE
  rw [rowSum_apply, ← coe_sum]
  refine Finset.sum_congr rfl fun d _ => ?_
  rw [mulf_apply, hE, EReal.coe_mul]

/-- Per centroid, the sum of the squares of its coordinates. -/
theorem sqC_apply (hC : ∀ (j d : Fin 64), x2 (ix2 j d) = ((C j d : ℝ) : EReal)) (j : Fin 64) :
    sqC x2 (ix1 j) = ((∑ d, C j d * C j d : ℝ) : EReal) := by
  unfold sqC
  rw [rowSum64_apply, ← coe_sum]
  refine Finset.sum_congr rfl fun d _ => ?_
  rw [mulf_apply, hC, EReal.coe_mul]

/-- The left operand's index on its kept axis is the output's row. -/
theorem lhsIdx_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
/-- The left operand's index on its contracted axis is the contraction coordinate. -/
theorem lhsIdx_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
/-- The right operand's index on its contracted axis is the contraction coordinate. -/
theorem rhsIdx_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
/-- The right operand's index on its kept axis is the output's column. -/
theorem rhsIdx_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The product of the embeddings with the transposed centroids at (n, j) is ∑_d E n d · C j d. -/
theorem dotEC_apply (hE : ∀ (n : Fin 100000) (d : Fin 64), x0 (ix2 n d) = ((E n d : ℝ) : EReal))
    (hC : ∀ (j d : Fin 64), x2 (ix2 j d) = ((C j d : ℝ) : EReal)) (n : Fin 100000) (j : Fin 64) :
    dotEC x0 x2 (ix2 n j) = ((∑ d, E n d * C j d : ℝ) : EReal) := by
  unfold dotEC
  simp only [Host.dotGeneral]
  rw [Ideal.dotGeneral_apply, ← Equiv.sum_comp (contrEquiv1 dot_S100000x64_S64x64_S100000x64_1_0_0_1_n_n 64 rfl rfl).symm, ← coe_sum]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n j) ((contrEquiv1 dot_S100000x64_S64x64_S100000x64_1_0_0_1_n_n 64 rfl rfl).symm k) = ix2 n k := funext fun a => Fin.ext (by
    match a with
    | ⟨0, _⟩ => exact lhsIdx_0 _ _
    | ⟨1, _⟩ => exact (lhsIdx_1 _ _).trans hk)
  have er : dot_S100000x64_S64x64_S100000x64_1_0_0_1_n_n.rhsIdx (ix2 n j) ((contrEquiv1 dot_S100000x64_S64x64_S100000x64_1_0_0_1_n_n 64 rfl rfl).symm k) = ix2 k j := funext fun a => Fin.ext (by
    match a with
    | ⟨0, _⟩ => exact (rhsIdx_0 _ _).trans hk
    | ⟨1, _⟩ => exact rhsIdx_1 _ _)
  rw [el, er, hE, transpose_apply [1, 0] x2 transposes_S64x64_S64x64_1_0 (ix2 k j) (ix2 j k) (fun b => match b with
    | ⟨0, _⟩ => rfl
    | ⟨1, _⟩ => rfl), hC, EReal.coe_mul]

/-- The root of the clamped squared distance is the distance. -/
theorem dst_apply (hE : ∀ (n : Fin 100000) (d : Fin 64), x0 (ix2 n d) = ((E n d : ℝ) : EReal))
    (hC : ∀ (j d : Fin 64), x2 (ix2 j d) = ((C j d : ℝ) : EReal)) (n : Fin 100000) (j : Fin 64) :
    dst x0 x2 (ix2 n j) = ((dist E C n j : ℝ) : EReal) := by
  unfold dst
  rw [hostSqrt_apply, maximumf_apply, subf_apply, addf_apply, mulf_apply, bcastCol_apply, bcastRow_apply, asRow_apply,
    splat_apply, splat_apply, sqE_apply x0 E hE, sqC_apply x2 C hC, dotEC_apply x0 x2 E C hE hC, ofBits_two, ofBits_eps,
    ← EReal.coe_add, ← EReal.coe_mul, ← EReal.coe_sub, ← coe_max]
  show Ideal.sqrt ((sq E C n j : ℝ) : EReal) = _
  rw [Ideal.sqrt_coe, if_neg (not_lt.mpr (sq_pos E C n j).le)]
  rfl

/-- The one-hot weight: 1 when the label word is the cluster's word, else 0. -/
theorem oh_apply (n : Fin 100000) (k : Fin 64) : oh x1 (ix2 n k) = ((ohw (x1 (ix1 n)) k : ℝ) : EReal) := by
  unfold oh
  rw [uitofp_apply, cmpi_apply, bcastCol_apply, bcastRow_apply, iotaInDim_apply]
  show (((IntOp.cmpi .eq (x1 (ix1 n)) (BitVec.ofNat 32 k.val)).toNat : ℝ) : EReal) = _
  unfold ohw IntOp.cmpi
  by_cases h : x1 (ix1 n) = BitVec.ofNat 32 k.val <;> simp [h]

/-- The cluster sizes are the sums of the one-hot weights. -/
theorem cnt_apply (k : Fin 64) : cnt x1 (ix1 k) = ((LossSpec.count (ohOf fun n => x1 (ix1 n)) k : ℝ) : EReal) := by
  unfold cnt LossSpec.count
  rw [colSum_apply, ← coe_sum]
  exact Finset.sum_congr rfl fun n _ => oh_apply x1 n k

/-- The hinge max ((10 − dist)²) 0. -/
theorem hg_apply (hE : ∀ (n : Fin 100000) (d : Fin 64), x0 (ix2 n d) = ((E n d : ℝ) : EReal))
    (hC : ∀ (j d : Fin 64), x2 (ix2 j d) = ((C j d : ℝ) : EReal)) (n : Fin 100000) (j : Fin 64) :
    hg x0 x2 (ix2 n j) = ((hinge (dist E C) n j : ℝ) : EReal) := by
  unfold hg
  rw [maximumf_apply, mulf_apply, subf_apply, splat_apply, splat_apply, dst_apply x0 x2 E C hE hC, ofBits_ten, ofBits_zero,
    ← EReal.coe_sub, ← EReal.coe_mul, ← coe_max]
  rfl

/-- Per point, the hinge summed over the centroids. -/
theorem hgRow_apply (hE : ∀ (n : Fin 100000) (d : Fin 64), x0 (ix2 n d) = ((E n d : ℝ) : EReal))
    (hC : ∀ (j d : Fin 64), x2 (ix2 j d) = ((C j d : ℝ) : EReal)) (n : Fin 100000) :
    hgRow x0 x2 (ix1 n) = ((∑ j, hinge (dist E C) n j : ℝ) : EReal) := by
  unfold hgRow
  rw [rowSum_apply, ← coe_sum]
  exact Finset.sum_congr rfl fun j _ => hg_apply x0 x2 E C hE hC n j

/-- Per cluster, ∑_n oh n k · dist n k². -/
theorem attrNum_apply (hE : ∀ (n : Fin 100000) (d : Fin 64), x0 (ix2 n d) = ((E n d : ℝ) : EReal))
    (hC : ∀ (j d : Fin 64), x2 (ix2 j d) = ((C j d : ℝ) : EReal)) (k : Fin 64) :
    attrNum x0 x1 x2 (ix1 k)
      = ((∑ n, ohOf (fun n => x1 (ix1 n)) n k * (dist E C n k * dist E C n k) : ℝ) : EReal) := by
  unfold attrNum
  rw [colSum_apply, ← coe_sum]
  refine Finset.sum_congr rfl fun n _ => ?_
  rw [mulf_apply, mulf_apply, oh_apply, dst_apply x0 x2 E C hE hC, ← EReal.coe_mul, ← EReal.coe_mul]
  rfl

/-- Per cluster, ∑_n oh n k · ∑_j hinge n j. -/
theorem repAll_apply (hE : ∀ (n : Fin 100000) (d : Fin 64), x0 (ix2 n d) = ((E n d : ℝ) : EReal))
    (hC : ∀ (j d : Fin 64), x2 (ix2 j d) = ((C j d : ℝ) : EReal)) (k : Fin 64) :
    repAll x0 x1 x2 (ix1 k)
      = ((∑ n, ohOf (fun n => x1 (ix1 n)) n k * ∑ j, hinge (dist E C) n j : ℝ) : EReal) := by
  unfold repAll
  rw [colSum_apply, ← coe_sum]
  refine Finset.sum_congr rfl fun n _ => ?_
  rw [mulf_apply, oh_apply, bcastCol_apply, hgRow_apply x0 x2 E C hE hC, ← EReal.coe_mul]
  rfl

/-- Per cluster, ∑_n oh n k · hinge n k. -/
theorem repOwn_apply (hE : ∀ (n : Fin 100000) (d : Fin 64), x0 (ix2 n d) = ((E n d : ℝ) : EReal))
    (hC : ∀ (j d : Fin 64), x2 (ix2 j d) = ((C j d : ℝ) : EReal)) (k : Fin 64) :
    repOwn x0 x1 x2 (ix1 k)
      = ((∑ n, ohOf (fun n => x1 (ix1 n)) n k * hinge (dist E C) n k : ℝ) : EReal) := by
  unfold repOwn
  rw [colSum_apply, ← coe_sum]
  refine Finset.sum_congr rfl fun n _ => ?_
  rw [mulf_apply, oh_apply, hg_apply x0 x2 E C hE hC, ← EReal.coe_mul]
  rfl

/-- A cluster is valid when its size is positive. -/
theorem valid_apply (k : Fin 64) :
    valid x1 (ix1 k) = BitVec.ofBool (decide (0 < LossSpec.count (ohOf fun n => x1 (ix1 n)) k)) := by
  unfold valid
  rw [cmpf_apply, splat_apply, cnt_apply, ofBits_zero, Ideal.cmpf_def]
  show BitVec.ofBool (decide (((0 : ℝ) : EReal) < ((LossSpec.count (ohOf fun n => x1 (ix1 n)) k : ℝ) : EReal))) = _
  simp only [EReal.coe_lt_coe_iff]

end Stages

section Final
variable (x0 : A0) (x1 : A1) (x2 : A2) (E : Fin 100000 → Fin 64 → ℝ) (C : Fin 64 → Fin 64 → ℝ)

/-- The attraction of a non-empty cluster, 0 for an empty one. -/
theorem attr_apply (hE : ∀ (n : Fin 100000) (d : Fin 64), x0 (ix2 n d) = ((E n d : ℝ) : EReal))
    (hC : ∀ (j d : Fin 64), x2 (ix2 j d) = ((C j d : ℝ) : EReal)) (k : Fin 64) :
    attr x0 x1 x2 (ix1 k)
      = (((if 0 < LossSpec.count (ohOf fun n => x1 (ix1 n)) k then attrRef (ohOf fun n => x1 (ix1 n)) (dist E C) k else 0 : ℝ)) : EReal) := by
  unfold attr
  have hden : max (LossSpec.count (ohOf fun n => x1 (ix1 n)) k) 1 ≠ 0 :=
    ne_of_gt (lt_of_lt_of_le one_pos (le_max_right _ _))
  rw [select_apply, valid_apply, select_ofBool, hostDivf_apply, maximumf_apply, splat_apply, splat_apply,
    attrNum_apply x0 x1 x2 E C hE hC, cnt_apply, ofBits_one, ofBits_zero, ← coe_max,
    Ideal.div_coe hden, ← EReal.coe_mul, mul_one_div]
  by_cases hp : 0 < LossSpec.count (ohOf fun n => x1 (ix1 n)) k
  · rw [if_pos hp, if_pos hp]; rfl
  · rw [if_neg hp, if_neg hp]

/-- The repulsion of a non-empty cluster, 0 for an empty one. -/
theorem rep_apply (hE : ∀ (n : Fin 100000) (d : Fin 64), x0 (ix2 n d) = ((E n d : ℝ) : EReal))
    (hC : ∀ (j d : Fin 64), x2 (ix2 j d) = ((C j d : ℝ) : EReal)) (k : Fin 64) :
    rep x0 x1 x2 (ix1 k)
      = (((if 0 < LossSpec.count (ohOf fun n => x1 (ix1 n)) k then repRef (ohOf fun n => x1 (ix1 n)) (dist E C) k else 0 : ℝ)) : EReal) := by
  unfold rep
  have hden : max (LossSpec.count (ohOf fun n => x1 (ix1 n)) k * 63) 1 ≠ 0 :=
    ne_of_gt (lt_of_lt_of_le one_pos (le_max_right _ _))
  rw [select_apply, valid_apply, select_ofBool, hostDivf_apply, subf_apply, maximumf_apply, mulf_apply, splat_apply,
    splat_apply, splat_apply, repAll_apply x0 x1 x2 E C hE hC, repOwn_apply x0 x1 x2 E C hE hC, cnt_apply,
    ofBits_sixtyThree, ofBits_one, ofBits_zero, ← EReal.coe_sub, ← EReal.coe_mul, ← coe_max,
    Ideal.div_coe hden, ← EReal.coe_mul, mul_one_div]
  by_cases hp : 0 < LossSpec.count (ohOf fun n => x1 (ix1 n)) k
  · rw [if_pos hp, if_pos hp]; rfl
  · rw [if_neg hp, if_neg hp]

/-- The staged term is the loss. -/
theorem total_apply (hE : ∀ (n : Fin 100000) (d : Fin 64), x0 (ix2 n d) = ((E n d : ℝ) : EReal))
    (hC : ∀ (j d : Fin 64), x2 (ix2 j d) = ((C j d : ℝ) : EReal)) (i : S_.Idx) :
    total x0 x1 x2 i = loss (fun n => x1 (ix1 n)) E C := by
  unfold total
  rw [hostDivf_apply, addf_apply, totalSum_apply, totalSum_apply, totalSum_apply]
  simp only [attr_apply x0 x1 x2 E C hE hC, rep_apply x0 x1 x2 E C hE hC, uitofp_apply, valid_apply, toNat_ofBool_decide]
  rw [coe_sum, coe_sum, coe_sum, ← EReal.coe_add]
  rfl

end Final

/-- On real-valued embeddings `E` and centroids `C` the reference's result is the loss of the labels, `E` and `C`. -/
theorem res_eq_loss (m : (ℓ : Loc nD τ sig) → Buf (Elt Ideal) ℓ) (c : Dev nD) (E : Fin 100000 → Fin 64 → ℝ) (C : Fin 64 → Fin 64 → ℝ)
    (hE : ∀ (n : Fin 100000) (d : Fin 64), m ((c.tc : Thread nD τ).loc main_arg0) (ValueIdx.ix2 n d) = ((E n d : ℝ) : EReal))
    (hC : ∀ (j d : Fin 64), m ((c.tc : Thread nD τ).loc main_arg2) (ValueIdx.ix2 j d) = ((C j d : ℝ) : EReal)) :
    Cert.ReferenceIdeal.RefRun.res_main_v51 (F := Ideal) m c
      = fun _ => Cert.LossData.loss (fun n => m ((c.tc : Thread nD τ).loc main_arg1) (ValueIdx.ix1 n)) E C := by
  rw [res_eq_total]
  funext i
  exact total_apply _ _ _ E C hE hC i

end Cert.ReferenceIdeal.RefValue

end
-- ==== Proof.lean ====
/-
  The certificate: the fused centroid-loss kernel against its per-point reference.

  Both programs take the embeddings of 100000 points, their cluster labels and 64 centroids, and return one
  scalar.  Under the precondition every embedding and centroid entry is a real number.  On real data the idealized
  kernel ends, after its ten grid points, with the finishing formula of three per-cluster sums over all points
  (the kernel's value), and the idealized reference ends with the per-point arrangement of the same loss (the
  reference's value); the two arrangements agree because `(10 - s)² = 100 - 20 s + s²` and `s² = q` for the
  distance `s` and the clamped squared distance `q`.  The three frames are the generated frame runs of the two
  kernels and the reference's run read back; the idealization rewrote nothing.
-/
import proofs.«117046_g74603581931673_cont_9to1_m_1323_25_alg».proof.Defs
import proofs.«117046_g74603581931673_cont_9to1_m_1323_25_alg».proof.Proof.Gen.Kernel
import proofs.«117046_g74603581931673_cont_9to1_m_1323_25_alg».proof.Proof.Gen.Kernel.Skeleton
import proofs.«117046_g74603581931673_cont_9to1_m_1323_25_alg».proof.Proof.Gen.Kernel.Launch
import proofs.«117046_g74603581931673_cont_9to1_m_1323_25_alg».proof.Proof.Gen.Kernel.Points
import proofs.«117046_g74603581931673_cont_9to1_m_1323_25_alg».proof.Proof.Gen.Kernel.Frame
import proofs.«117046_g74603581931673_cont_9to1_m_1323_25_alg».proof.Proof.Gen.KernelIdeal
import proofs.«117046_g74603581931673_cont_9to1_m_1323_25_alg».proof.Proof.Gen.KernelIdeal.Skeleton
import proofs.«117046_g74603581931673_cont_9to1_m_1323_25_alg».proof.Proof.Gen.KernelIdeal.Launch
import proofs.«117046_g74603581931673_cont_9to1_m_1323_25_alg».proof.Proof.Gen.KernelIdeal.Points
import proofs.«117046_g74603581931673_cont_9to1_m_1323_25_alg».proof.Proof.Gen.KernelIdeal.Frame
import proofs.«117046_g74603581931673_cont_9to1_m_1323_25_alg».proof.Proof.Gen.ReferenceIdeal
import proofs.«117046_g74603581931673_cont_9to1_m_1323_25_alg».proof.Proof.Gen.Pre_finite_inputs
import proofs.«117046_g74603581931673_cont_9to1_m_1323_25_alg».proof.Proof.FiniteInputs
import proofs.«117046_g74603581931673_cont_9to1_m_1323_25_alg».proof.Proof.KerOutput
import proofs.«117046_g74603581931673_cont_9to1_m_1323_25_alg».proof.Proof.KerValue
import proofs.«117046_g74603581931673_cont_9to1_m_1323_25_alg».proof.Proof.RefRun
import proofs.«117046_g74603581931673_cont_9to1_m_1323_25_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- A scalar array read at its one index. -/
theorem scalar_of_unit (x : Cert.KernelIdeal.S1x1.Idx → EReal) (h : Cert.KernelIdeal.S1x1.ShapeCasts Cert.KernelIdeal.S_) (i : Cert.KernelIdeal.S_.Idx) :
    shapeCast Cert.KernelIdeal.S_ x h i = x (ix2 (0 : Fin 1) (0 : Fin 1)) := by
  refine shapeCast_apply _ _ _ _ ?_
  rw [Shape.rowMajor_val_two]
  have hz : ((Cert.KernelIdeal.S_).rowMajor i).val = 0 := Shape.rowMajorPi_zero _ _
  rw [hz]
  rfl

/-- On real-valued embeddings and centroids both idealized programs end at the loss. -/
theorem algebraic : Cert.algebraic_KernelIdeal_ReferenceIdeal := by
  intro m ρ m' ρ' hpre hagree
  have hre := fun c => Cert.FiniteInputs.reals_of_pre _ _ _ (hpre c)
  choose Ef hEf using fun c => (hre c).1
  choose Cf hCf using fun c => (hre c).2
  refine ⟨fun c => fun _ => Cert.LossData.loss (Cert.KernelIdeal.KerValue.lab m c) (fun n d => Ef c (ix2 n d)) (fun j d => Cf c (ix2 j d)), ?_, ?_⟩
  · refine (θ_run Cert.KernelIdeal.defs _ _).mono (fun _ h c => ⟨(h c).1.trans ?_, (h c).2⟩) (Cert.KernelIdeal.KerOutput.run_value (F := Ideal) m ρ)
    funext i
    rw [scalar_of_unit]
    exact Cert.KernelIdeal.KerValue.last_value m c _ _ (fun n d => hEf c (ix2 n d)) (fun j d => hCf c (ix2 j d)) _
  · refine (θ_run Cert.ReferenceIdeal.defs _ _).mono (fun _ h c => ⟨(h c).1.trans ?_, (h c).2⟩) (Cert.ReferenceIdeal.RefRun.run (F := Ideal) m' ρ')
    rw [Cert.ReferenceIdeal.RefValue.res_eq_loss m' c (fun n d => Ef c (ix2 n d)) (fun j d => Cf c (ix2 j d))
      (fun n d => by rw [(hagree c).1]; exact hEf c (ix2 n d)) (fun j d => by rw [(hagree c).2.2]; exact hCf c (ix2 j d))]
    funext i
    rw [(hagree c).2.1]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
